-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x1024x1024 : Shape := ⟨4, ![4, 3, 1024, 1024]⟩
abbrev S_ : Shape := ⟨0, ![]⟩

class Facts : Prop where
  bcast_S_S4x3x1024x1024 : S_.BroadcastsInDim S4x3x1024x1024 (![] : Fin 0 → Fin S4x3x1024x1024.rank)
  reducesTo_S4x3x1024x1024_S_d0_1_2_3 : S4x3x1024x1024.ReducesTo [0, 1, 2, 3] S_
  h_S_ : 0 < S_.numel

variable [Facts]

def fn {F : FTy → Type} [FloatOps F] (main_arg0 : FVec F S4x3x1024x1024 .f32) : IVec S_ 1 :=
  let main_v0 : FVec F S4x3x1024x1024 .f32 := Host.absf main_arg0
  let main_cst : FVec F S_ .f32 := constant S_ .f32 0x7F800000#32
  let main_v1 : FVec F S4x3x1024x1024 .f32 := broadcastInDim S4x3x1024x1024 ![] bcast_S_S4x3x1024x1024 main_cst
  let main_v2 : IVec S4x3x1024x1024 1 := cmpf .olt main_v0 main_v1
  let main_c : IVec S_ 1 := constantI S_ 1 1#1
  let main_v3 : IVec S_ 1 := (fun x v => Host.reduce IntOp.andi x v reducesTo_S4x3x1024x1024_S_d0_1_2_3 h_S_) main_v2 main_c
  main_v3
-- ==== Kernel.lean ====
abbrev S4x3x1024x1024 : Shape := ⟨4, ![4, 3, 1024, 1024]⟩
abbrev S4x3x64x16x64x16 : Shape := ⟨6, ![4, 3, 64, 16, 64, 16]⟩
abbrev S4x3x64x15x64x15 : Shape := ⟨6, ![4, 3, 64, 15, 64, 15]⟩
abbrev S4x3x63x15x64x15 : Shape := ⟨6, ![4, 3, 63, 15, 64, 15]⟩
abbrev S_ : Shape := ⟨0, ![]⟩
abbrev S4x63x64 : Shape := ⟨3, ![4, 63, 64]⟩
abbrev S4x3x64x15x63x15 : Shape := ⟨6, ![4, 3, 64, 15, 63, 15]⟩
abbrev S4x64x63 : Shape := ⟨3, ![4, 64, 63]⟩
abbrev S4x64x64 : Shape := ⟨3, ![4, 64, 64]⟩
abbrev S4x4096 : Shape := ⟨2, ![4, 4096]⟩
abbrev S4x1x4096 : Shape := ⟨3, ![4, 1, 4096]⟩
abbrev S4x4096x1 : Shape := ⟨3, ![4, 4096, 1]⟩
abbrev S4x4096x4096 : Shape := ⟨3, ![4, 4096, 4096]⟩
abbrev S1x1x1024 : Shape := ⟨3, ![1, 1, 1024]⟩
abbrev S1x1024x1 : Shape := ⟨3, ![1, 1024, 1]⟩
abbrev S1x1024x1024 : Shape := ⟨3, ![1, 1024, 1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 28
  | .vmem => 10
  | .smem => 0
  | _ => 0

abbrev bufTy : (tb : Table) → Fin (tcTables nBuf tb) → BufTy
  | .hbm, ⟨0, _⟩ => ⟨S4x3x1024x1024, .f32⟩
  | .hbm, ⟨1, _⟩ => ⟨S4x3x64x16x64x16, .f32⟩
  | .hbm, ⟨2, _⟩ => ⟨S4x3x64x15x64x15, .f32⟩
  | .hbm, ⟨3, _⟩ => ⟨S4x3x63x15x64x15, .f32⟩
  | .hbm, ⟨4, _⟩ => ⟨S4x3x63x15x64x15, .f32⟩
  | .hbm, ⟨5, _⟩ => ⟨S4x3x63x15x64x15, .f32⟩
  | .hbm, ⟨6, _⟩ => ⟨S4x3x63x15x64x15, .f32⟩
  | .hbm, ⟨7, _⟩ => ⟨S_, .f32⟩
  | .hbm, ⟨8, _⟩ => ⟨S4x63x64, .f32⟩
  | .hbm, ⟨9, _⟩ => ⟨S4x3x64x15x63x15, .f32⟩
  | .hbm, ⟨10, _⟩ => ⟨S4x3x64x15x63x15, .f32⟩
  | .hbm, ⟨11, _⟩ => ⟨S4x3x64x15x63x15, .f32⟩
  | .hbm, ⟨12, _⟩ => ⟨S4x3x64x15x63x15, .f32⟩
  | .hbm, ⟨13, _⟩ => ⟨S_, .f32⟩
  | .hbm, ⟨14, _⟩ => ⟨S4x64x63, .f32⟩
  | .hbm, ⟨15, _⟩ => ⟨S_, .i32⟩
  | .hbm, ⟨16, _⟩ => ⟨S_, .f32⟩
  | .hbm, ⟨17, _⟩ => ⟨S4x64x64, .f32⟩
  | .hbm, ⟨18, _⟩ => ⟨S_, .i32⟩
  | .hbm, ⟨19, _⟩ => ⟨S_, .f32⟩
  | .hbm, ⟨20, _⟩ => ⟨S4x64x64, .f32⟩
  | .hbm, ⟨21, _⟩ => ⟨S4x4096, .f32⟩
  | .hbm, ⟨22, _⟩ => ⟨S4x4096, .f32⟩
  | .hbm, ⟨23, _⟩ => ⟨S4x1x4096, .f32⟩
  | .hbm, ⟨24, _⟩ => ⟨S4x4096x1, .f32⟩
  | .hbm, ⟨25, _⟩ => ⟨S4x4096x1, .f32⟩
  | .hbm, ⟨26, _⟩ => ⟨S4x1x4096, .f32⟩
  | .hbm, ⟨27, _⟩ => ⟨S4x4096x4096, .f32⟩
  | .local _ .vmem, ⟨0, _⟩ => ⟨S1x1x1024, .f32⟩
  | .local _ .vmem, ⟨1, _⟩ => ⟨S1x1x1024, .f32⟩
  | .local _ .vmem, ⟨2, _⟩ => ⟨S1x1024x1, .f32⟩
  | .local _ .vmem, ⟨3, _⟩ => ⟨S1x1024x1, .f32⟩
  | .local _ .vmem, ⟨4, _⟩ => ⟨S1x1024x1, .f32⟩
  | .local _ .vmem, ⟨5, _⟩ => ⟨S1x1024x1, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | _, _ => ⟨S4x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_c_1 : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def k0_cond1 (i : grid0.Coords) : BitVec 1 :=
  let arg1 : BitVec 32 := BitVec.ofNat 32 (i 1).val
  let c1024_i32 : BitVec 32 := 1024#32
  let v0 : BitVec 32 := Scalar.muli arg1 c1024_i32
  let arg2 : BitVec 32 := BitVec.ofNat 32 (i 2).val
  let c1024_i32_0 : BitVec 32 := 1024#32
  let v1 : BitVec 32 := Scalar.muli arg2 c1024_i32_0
  let v2 : BitVec 32 := Scalar.subi v0 v1
  let c1023_i32 : BitVec 32 := 1023#32
  let v3 : BitVec 32 := Scalar.subi v2 c1023_i32
  let c64_i32 : BitVec 32 := 64#32
  let v5 : BitVec 1 := Scalar.cmpi .sle v3 c64_i32
  let c1023_i32_1 : BitVec 32 := 1023#32
  let v4 : BitVec 32 := Scalar.addi v2 c1023_i32_1
  let c64_i32_2 : BitVec 32 := 64#32
  let v6 : BitVec 1 := Scalar.cmpi .sge v4 c64_i32_2
  let v7 : BitVec 1 := Scalar.andi v5 v6
  let c_m64_i32 : BitVec 32 := 4294967232#32
  let v8 : BitVec 1 := Scalar.cmpi .sle v3 c_m64_i32
  let c_m64_i32_3 : BitVec 32 := 4294967232#32
  let v9 : BitVec 1 := Scalar.cmpi .sge v4 c_m64_i32_3
  let v10 : BitVec 1 := Scalar.andi v8 v9
  let v11 : BitVec 1 := Scalar.ori v7 v10
  let c1_i32 : BitVec 32 := 1#32
  let v12 : BitVec 1 := Scalar.cmpi .sle v3 c1_i32
  let c1_i32_4 : BitVec 32 := 1#32
  let v13 : BitVec 1 := Scalar.cmpi .sge v4 c1_i32_4
  let v14 : BitVec 1 := Scalar.andi v12 v13
  let v15 : BitVec 1 := Scalar.ori v11 v14
  let c_m1_i32 : BitVec 32 := 4294967295#32
  let v16 : BitVec 1 := Scalar.cmpi .sle v3 c_m1_i32
  let c_m1_i32_5 : BitVec 32 := 4294967295#32
  let v17 : BitVec 1 := Scalar.cmpi .sge v4 c_m1_i32_5
  let v18 : BitVec 1 := Scalar.andi v16 v17
  let v19 : BitVec 1 := Scalar.ori v15 v18
  let v_true : BitVec 1 := 1#1
  let v20 : BitVec 1 := Scalar.xori v19 v_true
  let v21 : BitVec 32 := Scalar.extui v20
  let c0_i32 : BitVec 32 := 0#32
  let v22 : BitVec 1 := Scalar.cmpi .ne v21 c0_i32
  v22

def k0_cond2 (i : grid0.Coords) : BitVec 1 :=
  let arg1 : BitVec 32 := BitVec.ofNat 32 (i 1).val
  let c1024_i32 : BitVec 32 := 1024#32
  let v0 : BitVec 32 := Scalar.muli arg1 c1024_i32
  let arg2 : BitVec 32 := BitVec.ofNat 32 (i 2).val
  let c1024_i32_0 : BitVec 32 := 1024#32
  let v1 : BitVec 32 := Scalar.muli arg2 c1024_i32_0
  let v2 : BitVec 32 := Scalar.subi v0 v1
  let c1023_i32 : BitVec 32 := 1023#32
  let v3 : BitVec 32 := Scalar.subi v2 c1023_i32
  let c64_i32 : BitVec 32 := 64#32
  let v5 : BitVec 1 := Scalar.cmpi .sle v3 c64_i32
  let c1023_i32_1 : BitVec 32 := 1023#32
  let v4 : BitVec 32 := Scalar.addi v2 c1023_i32_1
  let c64_i32_2 : BitVec 32 := 64#32
  let v6 : BitVec 1 := Scalar.cmpi .sge v4 c64_i32_2
  let v7 : BitVec 1 := Scalar.andi v5 v6
  let c_m64_i32 : BitVec 32 := 4294967232#32
  let v8 : BitVec 1 := Scalar.cmpi .sle v3 c_m64_i32
  let c_m64_i32_3 : BitVec 32 := 4294967232#32
  let v9 : BitVec 1 := Scalar.cmpi .sge v4 c_m64_i32_3
  let v10 : BitVec 1 := Scalar.andi v8 v9
  let v11 : BitVec 1 := Scalar.ori v7 v10
  let c1_i32 : BitVec 32 := 1#32
  let v12 : BitVec 1 := Scalar.cmpi .sle v3 c1_i32
  let c1_i32_4 : BitVec 32 := 1#32
  let v13 : BitVec 1 := Scalar.cmpi .sge v4 c1_i32_4
  let v14 : BitVec 1 := Scalar.andi v12 v13
  let v15 : BitVec 1 := Scalar.ori v11 v14
  let c_m1_i32 : BitVec 32 := 4294967295#32
  let v16 : BitVec 1 := Scalar.cmpi .sle v3 c_m1_i32
  let c_m1_i32_5 : BitVec 32 := 4294967295#32
  let v17 : BitVec 1 := Scalar.cmpi .sge v4 c_m1_i32_5
  let v18 : BitVec 1 := Scalar.andi v16 v17
  let v19 : BitVec 1 := Scalar.ori v15 v18
  let v23 : BitVec 32 := Scalar.extui v19
  let c0_i32_6 : BitVec 32 := 0#32
  let v24 : BitVec 1 := Scalar.cmpi .ne v23 c0_i32_6
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  shapeCasts_S4x3x1024x1024_S4x3x64x16x64x16 : S4x3x1024x1024.ShapeCasts S4x3x64x16x64x16
  slices_S4x3x64x16x64x16_S4x3x64x15x64x15_0_0_0_0_0_0 : S4x3x64x16x64x16.Slices ![0, 0, 0, 0, 0, 0] S4x3x64x15x64x15
  slices_S4x3x64x15x64x15_S4x3x63x15x64x15_0_0_1_0_0_0 : S4x3x64x15x64x15.Slices ![0, 0, 1, 0, 0, 0] S4x3x63x15x64x15
  slices_S4x3x64x15x64x15_S4x3x63x15x64x15_0_0_0_0_0_0 : S4x3x64x15x64x15.Slices ![0, 0, 0, 0, 0, 0] S4x3x63x15x64x15
  reducesTo_S4x3x63x15x64x15_S4x63x64_d1_3_5 : S4x3x63x15x64x15.ReducesTo [1, 3, 5] S4x63x64
  h_S_ : 0 < S_.numel
  slices_S4x3x64x15x64x15_S4x3x64x15x63x15_0_0_0_0_1_0 : S4x3x64x15x64x15.Slices ![0, 0, 0, 0, 1, 0] S4x3x64x15x63x15
  slices_S4x3x64x15x64x15_S4x3x64x15x63x15_0_0_0_0_0_0 : S4x3x64x15x64x15.Slices ![0, 0, 0, 0, 0, 0] S4x3x64x15x63x15
  reducesTo_S4x3x64x15x63x15_S4x64x63_d1_3_5 : S4x3x64x15x63x15.ReducesTo [1, 3, 5] S4x64x63
  pads_S4x63x64_S4x64x64_000_010_000 : S4x63x64.Pads (![0, 0, 0] : Fin 3 → Nat) ![0, 1, 0] ![0, 0, 0] S4x64x64
  pads_S4x64x63_S4x64x64_000_000_010 : S4x64x63.Pads (![0, 0, 0] : Fin 3 → Nat) ![0, 0, 1] ![0, 0, 0] S4x64x64
  shapeCasts_S4x64x64_S4x4096 : S4x64x64.ShapeCasts S4x4096
  shapeCasts_S4x4096_S4x1x4096 : S4x4096.ShapeCasts S4x1x4096
  shapeCasts_S4x4096_S4x4096x1 : S4x4096.ShapeCasts S4x4096x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  iota_S1024x1024_d0_w32 : S1024x1024.Iotas .tc 32 [0]
  iota_S1024x1024_d1_w32 : S1024x1024.Iotas .tc 32 [1]
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1x1024_S1x1024 : S1x1024.ShapeCasts S1x1024
  broadcasts_S1x1024_S1024x1024 : S1x1024.Broadcasts S1024x1024
  shapeCasts_S1024x1_S1024x1 : S1024x1.ShapeCasts S1024x1
  broadcasts_S1024x1_S1024x1024 : S1024x1.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S4x1x4096.size a
  hwx0_0 : ∀ i : grid0.Coords, EltTy.bits .f32 = 32 ∨ (Rect.block (s := S4x1x4096) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S4x4096x1.size a
  hwx0_1 : ∀ i : grid0.Coords, EltTy.bits .f32 = 32 ∨ (Rect.block (s := S4x4096x1) S1x1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x4096x1.size a
  hwx0_2 : ∀ i : grid0.Coords, EltTy.bits .f32 = 32 ∨ (Rect.block (s := S4x4096x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S4x1x4096.size a
  hwx0_3 : ∀ i : grid0.Coords, EltTy.bits .f32 = 32 ∨ (Rect.block (s := S4x1x4096) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S4x4096x4096.size a
  hwx0_4 : ∀ i : grid0.Coords, EltTy.bits .f32 = 32 ∨ (Rect.block (s := S4x4096x4096) S1x1024x1024.size (cc0_transform_4 i) (hinb0_4 i)).WholeWords (EltTy.packing .f32)

variable [Facts₀]

abbrev win0_0 : Pipeline.Window sig grid0 :=
  Pipeline.Window.ofSpec (Memref.whole main_v16) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S4x3x1024x1024 : Shape := ⟨4, ![4, 3, 1024, 1024]⟩
abbrev S4x3x64x16x64x16 : Shape := ⟨6, ![4, 3, 64, 16, 64, 16]⟩
abbrev S4x3x64x15x64x15 : Shape := ⟨6, ![4, 3, 64, 15, 64, 15]⟩
abbrev S4x3x63x15x64x15 : Shape := ⟨6, ![4, 3, 63, 15, 64, 15]⟩
abbrev S_ : Shape := ⟨0, ![]⟩
abbrev S4x63x64 : Shape := ⟨3, ![4, 63, 64]⟩
abbrev S4x3x64x15x63x15 : Shape := ⟨6, ![4, 3, 64, 15, 63, 15]⟩
abbrev S4x64x63 : Shape := ⟨3, ![4, 64, 63]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x4096x4096 : Shape := ⟨3, ![4, 4096, 4096]⟩
abbrev S63x64 : Shape := ⟨2, ![63, 64]⟩
abbrev S4032 : Shape := ⟨1, ![4032]⟩
abbrev S4x4032 : Shape := ⟨2, ![4, 4032]⟩
abbrev S4032x1 : Shape := ⟨2, ![4032, 1]⟩
abbrev S4032x2 : Shape := ⟨2, ![4032, 2]⟩
abbrev S64x63 : Shape := ⟨2, ![64, 63]⟩

abbrev nBuf : Space → Nat
  | .hbm => 109
  | .vmem => 0
  | .smem => 0
  | _ => 0

abbrev bufTy : (tb : Table) → Fin (tcTables nBuf tb) → BufTy
  | .hbm, ⟨0, _⟩ => ⟨S4x3x1024x1024, .f32⟩
  | .hbm, ⟨1, _⟩ => ⟨S4x3x64x16x64x16, .f32⟩
  | .hbm, ⟨2, _⟩ => ⟨S4x3x64x15x64x15, .f32⟩
  | .hbm, ⟨3, _⟩ => ⟨S4x3x63x15x64x15, .f32⟩
  | .hbm, ⟨4, _⟩ => ⟨S4x3x63x15x64x15, .f32⟩
  | .hbm, ⟨5, _⟩ => ⟨S4x3x63x15x64x15, .f32⟩
  | .hbm, ⟨6, _⟩ => ⟨S4x3x63x15x64x15, .f32⟩
  | .hbm, ⟨7, _⟩ => ⟨S_, .f32⟩
  | .hbm, ⟨8, _⟩ => ⟨S4x63x64, .f32⟩
  | .hbm, ⟨9, _⟩ => ⟨S4x3x64x15x63x15, .f32⟩
  | .hbm, ⟨10, _⟩ => ⟨S4x3x64x15x63x15, .f32⟩
  | .hbm, ⟨11, _⟩ => ⟨S4x3x64x15x63x15, .f32⟩
  | .hbm, ⟨12, _⟩ => ⟨S4x3x64x15x63x15, .f32⟩
  | .hbm, ⟨13, _⟩ => ⟨S_, .f32⟩
  | .hbm, ⟨14, _⟩ => ⟨S4x64x63, .f32⟩
  | .hbm, ⟨15, _⟩ => ⟨S64, .i32⟩
  | .hbm, ⟨16, _⟩ => ⟨S64x1, .i32⟩
  | .hbm, ⟨17, _⟩ => ⟨S_, .i32⟩
  | .hbm, ⟨18, _⟩ => ⟨S64x1, .i32⟩
  | .hbm, ⟨19, _⟩ => ⟨S64x1, .i32⟩
  | .hbm, ⟨20, _⟩ => ⟨S64, .i32⟩
  | .hbm, ⟨21, _⟩ => ⟨S1x64, .i32⟩
  | .hbm, ⟨22, _⟩ => ⟨S64x64, .i32⟩
  | .hbm, ⟨23, _⟩ => ⟨S64x64, .i32⟩
  | .hbm, ⟨24, _⟩ => ⟨S64x64, .i32⟩
  | .hbm, ⟨25, _⟩ => ⟨S_, .f32⟩
  | .hbm, ⟨26, _⟩ => ⟨S4x4096x4096, .f32⟩
  | .hbm, ⟨27, _⟩ => ⟨S63x64, .i32⟩
  | .hbm, ⟨28, _⟩ => ⟨S4032, .i32⟩
  | .hbm, ⟨29, _⟩ => ⟨S63x64, .i32⟩
  | .hbm, ⟨30, _⟩ => ⟨S4032, .i32⟩
  | .hbm, ⟨31, _⟩ => ⟨S4x4032, .f32⟩
  | .hbm, ⟨32, _⟩ => ⟨S_, .i32⟩
  | .hbm, ⟨33, _⟩ => ⟨S4032, .i32⟩
  | .hbm, ⟨34, _⟩ => ⟨S4032, .i1⟩
  | .hbm, ⟨35, _⟩ => ⟨S_, .i32⟩
  | .hbm, ⟨36, _⟩ => ⟨S4032, .i32⟩
  | .hbm, ⟨37, _⟩ => ⟨S4032, .i32⟩
  | .hbm, ⟨38, _⟩ => ⟨S4032, .i32⟩
  | .hbm, ⟨39, _⟩ => ⟨S_, .i32⟩
  | .hbm, ⟨40, _⟩ => ⟨S4032, .i32⟩
  | .hbm, ⟨41, _⟩ => ⟨S4032, .i1⟩
  | .hbm, ⟨42, _⟩ => ⟨S_, .i32⟩
  | .hbm, ⟨43, _⟩ => ⟨S4032, .i32⟩
  | .hbm, ⟨44, _⟩ => ⟨S4032, .i32⟩
  | .hbm, ⟨45, _⟩ => ⟨S4032, .i32⟩
  | .hbm, ⟨46, _⟩ => ⟨S4032x1, .i32⟩
  | .hbm, ⟨47, _⟩ => ⟨S4032x1, .i32⟩
  | .hbm, ⟨48, _⟩ => ⟨S4032x2, .i32⟩
  | .hbm, ⟨49, _⟩ => ⟨S4x4096x4096, .f32⟩
  | .hbm, ⟨50, _⟩ => ⟨S_, .i32⟩
  | .hbm, ⟨51, _⟩ => ⟨S4032, .i32⟩
  | .hbm, ⟨52, _⟩ => ⟨S4032, .i1⟩
  | .hbm, ⟨53, _⟩ => ⟨S_, .i32⟩
  | .hbm, ⟨54, _⟩ => ⟨S4032, .i32⟩
  | .hbm, ⟨55, _⟩ => ⟨S4032, .i32⟩
  | .hbm, ⟨56, _⟩ => ⟨S4032, .i32⟩
  | .hbm, ⟨57, _⟩ => ⟨S_, .i32⟩
  | .hbm, ⟨58, _⟩ => ⟨S4032, .i32⟩
  | .hbm, ⟨59, _⟩ => ⟨S4032, .i1⟩
  | .hbm, ⟨60, _⟩ => ⟨S_, .i32⟩
  | .hbm, ⟨61, _⟩ => ⟨S4032, .i32⟩
  | .hbm, ⟨62, _⟩ => ⟨S4032, .i32⟩
  | .hbm, ⟨63, _⟩ => ⟨S4032, .i32⟩
  | .hbm, ⟨64, _⟩ => ⟨S4032x1, .i32⟩
  | .hbm, ⟨65, _⟩ => ⟨S4032x1, .i32⟩
  | .hbm, ⟨66, _⟩ => ⟨S4032x2, .i32⟩
  | .hbm, ⟨67, _⟩ => ⟨S4x4096x4096, .f32⟩
  | .hbm, ⟨68, _⟩ => ⟨S64x63, .i32⟩
  | .hbm, ⟨69, _⟩ => ⟨S4032, .i32⟩
  | .hbm, ⟨70, _⟩ => ⟨S64x63, .i32⟩
  | .hbm, ⟨71, _⟩ => ⟨S4032, .i32⟩
  | .hbm, ⟨72, _⟩ => ⟨S4x4032, .f32⟩
  | .hbm, ⟨73, _⟩ => ⟨S_, .i32⟩
  | .hbm, ⟨74, _⟩ => ⟨S4032, .i32⟩
  | .hbm, ⟨75, _⟩ => ⟨S4032, .i1⟩
  | .hbm, ⟨76, _⟩ => ⟨S_, .i32⟩
  | .hbm, ⟨77, _⟩ => ⟨S4032, .i32⟩
  | .hbm, ⟨78, _⟩ => ⟨S4032, .i32⟩
  | .hbm, ⟨79, _⟩ => ⟨S4032, .i32⟩
  | .hbm, ⟨80, _⟩ => ⟨S_, .i32⟩
  | .hbm, ⟨81, _⟩ => ⟨S4032, .i32⟩
  | .hbm, ⟨82, _⟩ => ⟨S4032, .i1⟩
  | .hbm, ⟨83, _⟩ => ⟨S_, .i32⟩
  | .hbm, ⟨84, _⟩ => ⟨S4032, .i32⟩
  | .hbm, ⟨85, _⟩ => ⟨S4032, .i32⟩
  | .hbm, ⟨86, _⟩ => ⟨S4032, .i32⟩
  | .hbm, ⟨87, _⟩ => ⟨S4032x1, .i32⟩
  | .hbm, ⟨88, _⟩ => ⟨S4032x1, .i32⟩
  | .hbm, ⟨89, _⟩ => ⟨S4032x2, .i32⟩
  | .hbm, ⟨90, _⟩ => ⟨S4x4096x4096, .f32⟩
  | .hbm, ⟨91, _⟩ => ⟨S_, .i32⟩
  | .hbm, ⟨92, _⟩ => ⟨S4032, .i32⟩
  | .hbm, ⟨93, _⟩ => ⟨S4032, .i1⟩
  | .hbm, ⟨94, _⟩ => ⟨S_, .i32⟩
  | .hbm, ⟨95, _⟩ => ⟨S4032, .i32⟩
  | .hbm, ⟨96, _⟩ => ⟨S4032, .i32⟩
  | .hbm, ⟨97, _⟩ => ⟨S4032, .i32⟩
  | .hbm, ⟨98, _⟩ => ⟨S_, .i32⟩
  | .hbm, ⟨99, _⟩ => ⟨S4032, .i32⟩
  | .hbm, ⟨100, _⟩ => ⟨S4032, .i1⟩
  | .hbm, ⟨101, _⟩ => ⟨S_, .i32⟩
  | .hbm, ⟨102, _⟩ => ⟨S4032, .i32⟩
  | .hbm, ⟨103, _⟩ => ⟨S4032, .i32⟩
  | .hbm, ⟨104, _⟩ => ⟨S4032, .i32⟩
  | .hbm, ⟨105, _⟩ => ⟨S4032x1, .i32⟩
  | .hbm, ⟨106, _⟩ => ⟨S4032x1, .i32⟩
  | .hbm, ⟨107, _⟩ => ⟨S4032x2, .i32⟩
  | .hbm, ⟨108, _⟩ => ⟨S4x4096x4096, .f32⟩
  | _, _ => ⟨S4x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c_2 : Ref sig .tc := ⟨.hbm, 32, rfl⟩
abbrev main_v27 : Ref sig .tc := ⟨.hbm, 33, rfl⟩
abbrev main_v28 : Ref sig .tc := ⟨.hbm, 34, rfl⟩
abbrev main_c_3 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_4 : Ref sig .tc := ⟨.hbm, 39, rfl⟩
abbrev main_v32 : Ref sig .tc := ⟨.hbm, 40, rfl⟩
abbrev main_v33 : Ref sig .tc := ⟨.hbm, 41, rfl⟩
abbrev main_c_5 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c_6 : Ref sig .tc := ⟨.hbm, 50, rfl⟩
abbrev main_v41 : Ref sig .tc := ⟨.hbm, 51, rfl⟩
abbrev main_v42 : Ref sig .tc := ⟨.hbm, 52, rfl⟩
abbrev main_c_7 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_8 : Ref sig .tc := ⟨.hbm, 57, rfl⟩
abbrev main_v46 : Ref sig .tc := ⟨.hbm, 58, rfl⟩
abbrev main_v47 : Ref sig .tc := ⟨.hbm, 59, rfl⟩
abbrev main_c_9 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_c_10 : Ref sig .tc := ⟨.hbm, 73, rfl⟩
abbrev main_v60 : Ref sig .tc := ⟨.hbm, 74, rfl⟩
abbrev main_v61 : Ref sig .tc := ⟨.hbm, 75, rfl⟩
abbrev main_c_11 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_c_12 : Ref sig .tc := ⟨.hbm, 80, rfl⟩
abbrev main_v65 : Ref sig .tc := ⟨.hbm, 81, rfl⟩
abbrev main_v66 : Ref sig .tc := ⟨.hbm, 82, rfl⟩
abbrev main_c_13 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_c_14 : Ref sig .tc := ⟨.hbm, 91, rfl⟩
abbrev main_v74 : Ref sig .tc := ⟨.hbm, 92, rfl⟩
abbrev main_v75 : Ref sig .tc := ⟨.hbm, 93, rfl⟩
abbrev main_c_15 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_c_16 : Ref sig .tc := ⟨.hbm, 98, rfl⟩
abbrev main_v79 : Ref sig .tc := ⟨.hbm, 99, rfl⟩
abbrev main_v80 : Ref sig .tc := ⟨.hbm, 100, rfl⟩
abbrev main_c_17 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩

abbrev nD : Nat := 1
abbrev τ : Topo := Topo.v7x

variable {F : FTy → Type} [FloatOps F]

class Facts₀ : Prop where
  shapeCasts_S4x3x1024x1024_S4x3x64x16x64x16 : S4x3x1024x1024.ShapeCasts S4x3x64x16x64x16
  slices_S4x3x64x16x64x16_S4x3x64x15x64x15_0_0_0_0_0_0 : S4x3x64x16x64x16.Slices ![0, 0, 0, 0, 0, 0] S4x3x64x15x64x15
  slices_S4x3x64x15x64x15_S4x3x63x15x64x15_0_0_1_0_0_0 : S4x3x64x15x64x15.Slices ![0, 0, 1, 0, 0, 0] S4x3x63x15x64x15
  slices_S4x3x64x15x64x15_S4x3x63x15x64x15_0_0_0_0_0_0 : S4x3x64x15x64x15.Slices ![0, 0, 0, 0, 0, 0] S4x3x63x15x64x15
  reducesTo_S4x3x63x15x64x15_S4x63x64_d1_3_5 : S4x3x63x15x64x15.ReducesTo [1, 3, 5] S4x63x64
  h_S_ : 0 < S_.numel
  slices_S4x3x64x15x64x15_S4x3x64x15x63x15_0_0_0_0_1_0 : S4x3x64x15x64x15.Slices ![0, 0, 0, 0, 1, 0] S4x3x64x15x63x15
  slices_S4x3x64x15x64x15_S4x3x64x15x63x15_0_0_0_0_0_0 : S4x3x64x15x64x15.Slices ![0, 0, 0, 0, 0, 0] S4x3x64x15x63x15
  reducesTo_S4x3x64x15x63x15_S4x64x63_d1_3_5 : S4x3x64x15x63x15.ReducesTo [1, 3, 5] S4x64x63
  bcast_S64_S64x1_0 : S64.BroadcastsInDim S64x1 (![0] : Fin 1 → Fin S64x1.rank)
  bcast_S_S64x1 : S_.BroadcastsInDim S64x1 (![] : Fin 0 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S4x4096x4096 : S_.BroadcastsInDim S4x4096x4096 (![] : Fin 0 → Fin S4x4096x4096.rank)
  slices_S64x64_S63x64_1_0 : S64x64.Slices ![1, 0] S63x64
  shapeCasts_S63x64_S4032 : S63x64.ShapeCasts S4032
  slices_S64x64_S63x64_0_0 : S64x64.Slices ![0, 0] S63x64
  shapeCasts_S4x63x64_S4x4032 : S4x63x64.ShapeCasts S4x4032
  bcast_S_S4032 : S_.BroadcastsInDim S4032 (![] : Fin 0 → Fin S4032.rank)
  bcast_S4032_S4032x1_0 : S4032.BroadcastsInDim S4032x1 (![0] : Fin 1 → Fin S4032x1.rank)
  concatenates_S4032x1_S4032x1_S4032x2_d1 : Shape.Concatenates [S4032x1, S4032x1] S4032x2 1
  slices_S64x64_S64x63_0_0 : S64x64.Slices ![0, 0] S64x63
  shapeCasts_S64x63_S4032 : S64x63.ShapeCasts S4032
  slices_S64x64_S64x63_0_1 : S64x64.Slices ![0, 1] S64x63
  shapeCasts_S4x64x63_S4x4032 : S4x64x63.ShapeCasts S4x4032
  scatter_S4x4096x4096_S4032x2_S4x4032_0_12_12_1_wf : ScatterDims.WF S4x4096x4096 S4032x2 S4x4032 [0] [1, 2] [1, 2] 1

variable [Facts₀]

def scatter_S4x4096x4096_S4032x2_S4x4032_0_12_12_1 : ScatterDims S4x4096x4096 S4032x2 S4x4032 where
  updateWindowDims := [0]
  insertedWindowDims := [1, 2]
  scatterDimsToOperandDims := [1, 2]
  indexVectorDim := 1
  wf := scatter_S4x4096x4096_S4032x2_S4x4032_0_12_12_1_wf

class Facts : Prop extends Facts₀ where

variable [Facts]
-- ==== Proof.KernelBody.lean ====
/-
  The frame of the word-level program: its one region runs the tile body at the 64 grid points (batch, row tile, column
  tile). The body makes two conditional stores of the whole 1024 x 1024 output tile: the zero tile when the tile's
  row and column ranges are too far apart to meet any of the four diagonals r - c = 64, -64, -1, 1, and otherwise the
  select chain over the four loaded blocks. The second condition is the negation of the first, so at every grid point
  exactly one store decides the tile (`cond_cover`, decided over the grid): the output window is never left as found, and
  what the tile holds after the body is `outTile`: the chain where the second condition holds, zero elsewhere.
  The body's run is by symbolic execution through both conditionals in each of the three cases the conditions allow;
  the proof data name every window's staging contents after each point, and the launch theorem gives the run.
-/
import proofs.«100916_j78520592106142_2_alg».proof.Proof.Gen.Kernel.Frame
import proofs.«100916_j78520592106142_2_alg».proof.Proof.Gen.Kernel.Skeleton
import Idealize.ShloMosaic.Lib.Tactic
import Idealize.ShloMosaic.Lib.Pipeline.Value

set_option maxRecDepth 16384

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

variable (m : (ℓ : Loc nD τ sig) → Buf (Elt F) ℓ) (ρ : Dev nD → PrngReg)

/-! ## The two branches between them cover the grid -/

/-- At every grid point at least one of the body's two conditional stores is taken: the second condition is the
    negation of the first (the tile either meets one of the four diagonals or it does not). -/
theorem cond_cover : ∀ t : Fin cfg0.N, k0_cond1 (grid0.coords t) = 1#1 ∨ k0_cond2 (grid0.coords t) = 1#1 :=
  (by decide +kernel : ∀ t : Fin grid0.N, k0_cond1 (grid0.coords t) = 1#1 ∨ k0_cond2 (grid0.coords t) = 1#1)

/-! ## Whole-block loads and stores -/

theorem zero3 : (![0, 0, 0] : Fin 3 → Nat) = fun _ => 0 := by
  funext a; match a with | ⟨0, _⟩ => rfl | ⟨1, _⟩ => rfl | ⟨2, _⟩ => rfl

/-- A load of a whole block through a whole memref reads the block's contents. -/
theorem readAt_whole {S : Shape} (hS : S.rank = 3) {M : Memref sig .tc .vmem S .f32} (h : M.IsWhole) {off : Fin S.rank → Nat}
    (hoff : off = fun _ => 0) (inb : ∀ a, off a + S.size a ≤ S.size a) (x : Vec F S .f32) :
    View.readAt (Elt F) M.view (Rect.unit off S.size inb).toLoadRect (h.unread x) = x := by
  rw [View.readAt_eq_ld, h.read_unread, View.ld_unit_zero hoff]

/-- A store of a whole block, made last, leaves its payload, whatever was stored before it. -/
theorem read_store_whole {S : Shape} {M : Memref sig .tc .vmem S .f32} {off : Fin S.rank → Nat}
    (hoff : off = fun _ => 0) (inb : ∀ a, off a + S.size a ≤ S.size a) (f : M.view.ty.Contents (Elt F)) (w : Vec F S .f32)
    (L : List (View.Piece (Elt F) S .f32)) :
    M.view.read (Elt F) (M.view.writes (Elt F) f ((⟨Rect.unit off S.size inb, w⟩ : View.Piece (Elt F) S .f32) :: L)) = w := by
  funext y
  rw [View.read_writes_apply_eq_canon _ _ y _ ⟨_, List.mem_cons_self, View.mem_set_unit_zero hoff inb y⟩,
    View.canon_cons_unit_zero hoff]

/-! ## The kernel body on any staging memrefs -/

/-- What the body leaves in the output tile's staging buffer: where the tile meets the band, the select chain over the
    four loaded blocks; elsewhere the zero tile. -/
def outTile (i : grid0.Coords) (x0 : Vec F S1x1x1024 .f32) (x1 x2 : Vec F S1x1024x1 .f32) (x3 : Vec F S1x1x1024 .f32) :
    Vec F S1x1024x1024 .f32 :=
  if k0_cond2 i = 1#1 then k0_pay2 i x0 x1 x2 x3 else k0_pay1

set_option maxHeartbeats 1600000 in
/-- On whole staging memrefs holding the four input blocks, at a grid point where one of the two conditions holds, the
    body runs to the continuation with the input blocks as they were and the output buffer at `outTile`. -/
theorem kernelRun (c : Dev nD) (i : grid0.Coords)
    (M0 : Memref sig .tc .vmem S1x1x1024 .f32) (h0 : M0.IsWhole) (M1 : Memref sig .tc .vmem S1x1024x1 .f32) (h1 : M1.IsWhole)
    (M2 : Memref sig .tc .vmem S1x1024x1 .f32) (h2 : M2.IsWhole) (M3 : Memref sig .tc .vmem S1x1x1024 .f32) (h3 : M3.IsWhole)
    (M4 : Memref sig .tc .vmem S1x1024x1024 .f32) (h4 : M4.IsWhole)
    (hcov : k0_cond1 i = 1#1 ∨ k0_cond2 i = 1#1)
    (x0 : Vec F S1x1x1024 .f32) (x1 : Vec F S1x1024x1 .f32) (x2 : Vec F S1x1024x1 .f32) (x3 : Vec F S1x1x1024 .f32)
    (E : Set ℕ) (K : PUnit → sProp 𝕄) :
    iprop(owns (c : Thread nD τ) M0 fullShare x0 ∗ owns (c : Thread nD τ) M1 fullShare x1 ∗ owns (c : Thread nD τ) M2 fullShare x2
        ∗ owns (c : Thread nD τ) M3 fullShare x3 ∗ (∃ d, owns (c : Thread nD τ) M4 fullShare d)
        ∗ (iprop(owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare (outTile i x0 x1 x2 x3)) -∗ K ⟨⟩))
      ⊢ wp frame (wpE (defs₀ (F := F)) 𝒱₀ c none) E (cc0__adjacency_kernel i M0 h0 M1 h1 M2 h2 M3 h3 M4 h4) K := by
  simp only [cc0__adjacency_kernel_eq_skeleton]; unfold cc0__adjacency_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := h0.eq_unread hf0; obtain rfl := h1.eq_unread hf1; obtain rfl := h2.eq_unread hf2; obtain rfl := h3.eq_unread hf3
  by_cases hc2 : k0_cond2 i = 1#1
  · have e : outTile i x0 x1 x2 x3 = k0_pay2 i x0 x1 x2 x3 := if_pos hc2
    rw [e]
    by_cases hc1 : k0_cond1 i = 1#1
    · sl_exec (disch := first | exact hc1 | exact hc2)
      sl_step
      iapply Hk
      isplitl [H0]; · iexists _; isplitr; · ipureintro; exact hf0
                      iexact H0
      isplitl [H1]; · iexists _; isplitr; · ipureintro; exact hf1
                      iexact H1
      isplitl [H2]; · iexists _; isplitr; · ipureintro; exact hf2
                      iexact H2
      isplitl [H3]; · iexists _; isplitr; · ipureintro; exact hf3
                      iexact H3
      iexists _; isplitr; swap; · iexact H4
      ipureintro
      rw [read_store_whole zero3, readAt_whole rfl h0 zero3, readAt_whole rfl h1 zero3, readAt_whole rfl h2 zero3, readAt_whole rfl h3 zero3]
    · sl_exec (disch := first | exact hc1 | exact hc2)
      sl_step
      iapply Hk
      isplitl [H0]; · iexists _; isplitr; · ipureintro; exact hf0
                      iexact H0
      isplitl [H1]; · iexists _; isplitr; · ipureintro; exact hf1
                      iexact H1
      isplitl [H2]; · iexists _; isplitr; · ipureintro; exact hf2
                      iexact H2
      isplitl [H3]; · iexists _; isplitr; · ipureintro; exact hf3
                      iexact H3
      iexists _; isplitr; swap; · iexact H4
      ipureintro
      rw [read_store_whole zero3, readAt_whole rfl h0 zero3, readAt_whole rfl h1 zero3, readAt_whole rfl h2 zero3, readAt_whole rfl h3 zero3]
  · have hc1 : k0_cond1 i = 1#1 := hcov.resolve_right hc2
    have e : outTile i x0 x1 x2 x3 = k0_pay1 := if_neg hc2
    rw [e]
    sl_exec (disch := first | exact hc1 | exact hc2)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    iexists _; isplitr; swap; · iexact H4
    ipureintro
    rw [read_store_whole zero3]

/-! ## The staging memrefs at a point -/

abbrev ms0_0 (t : Fin cfg0.N) : Memref sig .tc .vmem S1x1x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1024 .f32 := win0_4.stage (cfg0.slots t 4)
abbrev hs0_4 (t : Fin cfg0.N) : (ms0_4 t).IsWhole := hstage0_4 ((cfg0.slots t 4).cast nbuf0_4)

/-- The output tile the body leaves at point `t`: `outTile` of the point's coordinates and its four input blocks. -/
def outAt (c : Dev nD) (t : Fin cfg0.N) : Vec F S1x1024x1024 .f32 :=
  outTile (grid0.coords t) (iblk m c 0 t) (iblk m c 1 t) (iblk m c 2 t) (iblk m c 3 t)

/-! ## The pipeline's proof data -/

/-- The arrays as the region finds them; after the body each input's buffer still at its block and the output's at
    `outAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

/-- Each input's staging buffer holds its block when the body runs, fetched at the point or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- No grid point is idle for the output: one of the two stores is always made. -/
theorem not_idle (t : Fin cfg0.N) : idle0 4 (grid0.coords t) = false := by
  show (!(k0_cond1 (grid0.coords t) == 1#1) && !(k0_cond2 (grid0.coords t) == 1#1)) = false
  rcases cond_cover t with h | h <;> simp [h]

set_option maxHeartbeats 1600000 in
/-- At every point the body, called on the current staging buffers — the inputs' holding their blocks, the output's
    anything —, returns them with the inputs unchanged and the output's at `outAt`; the invariant and the empty debt
    pass through unread. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3]
  rw [show (dats m 0 c).Φ t.succ = (dats m 0 c).Φ t.castSucc from rfl,
    show (dats m 0 c).owesAt () t.succ = (dats m 0 c).owesAt () t.castSucc from rfl, after0_0, after0_1, after0_2, after0_3, after0_4]
  rw [not_idle t]
  dsimp only
  unfold outAt
  iintro ⟨HΦ, Ho, ⟨%d0, H0⟩, ⟨%d1, H1⟩, ⟨%d2, H2⟩, ⟨%d3, H3⟩, ⟨%d4, H4⟩⟩
  iapply (kernelRun c (grid0.coords t) _ _ _ _ _ _ _ _ _ _ (cond_cover t) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-! ## The run and the frame -/

set_option backward.isDefEq.respectTransparency.types false in
/-- From any memory with zero counters every weakly fair execution of @main terminates, and every final state has every
    array of the pipeline at what the proof data give and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The frame: the program runs to the end, faults nowhere, and leaves its argument array as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.KernelIdealBody.lean ====
/-
  The frame of the idealized program: its one region runs the tile body at the 64 grid points (batch, row tile, column
  tile). The body makes two conditional stores of the whole 1024 x 1024 output tile: the zero tile when the tile's
  row and column ranges are too far apart to meet any of the four diagonals r - c = 64, -64, -1, 1, and otherwise the
  select chain over the four loaded blocks. The second condition is the negation of the first, so at every grid point
  exactly one store decides the tile (`cond_cover`, decided over the grid): the output window is never left as found, and
  what the tile holds after the body is `outTile`: the chain where the second condition holds, zero elsewhere.
  The body's run is by symbolic execution through both conditionals in each of the three cases the conditions allow;
  the proof data name every window's staging contents after each point, and the launch theorem gives the run.
-/
import proofs.«100916_j78520592106142_2_alg».proof.Proof.Gen.KernelIdeal.Frame
import proofs.«100916_j78520592106142_2_alg».proof.Proof.Gen.KernelIdeal.Skeleton
import Idealize.ShloMosaic.Lib.Tactic
import Idealize.ShloMosaic.Lib.Pipeline.Value

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

variable (m : (ℓ : Loc nD τ sig) → Buf (Elt F) ℓ) (ρ : Dev nD → PrngReg)

/-! ## The two branches between them cover the grid -/

/-- At every grid point at least one of the body's two conditional stores is taken: the second condition is the
    negation of the first (the tile either meets one of the four diagonals or it does not). -/
theorem cond_cover : ∀ t : Fin cfg0.N, k0_cond1 (grid0.coords t) = 1#1 ∨ k0_cond2 (grid0.coords t) = 1#1 :=
  (by decide +kernel : ∀ t : Fin grid0.N, k0_cond1 (grid0.coords t) = 1#1 ∨ k0_cond2 (grid0.coords t) = 1#1)

/-! ## Whole-block loads and stores -/

theorem zero3 : (![0, 0, 0] : Fin 3 → Nat) = fun _ => 0 := by
  funext a; match a with | ⟨0, _⟩ => rfl | ⟨1, _⟩ => rfl | ⟨2, _⟩ => rfl

/-- A load of a whole block through a whole memref reads the block's contents. -/
theorem readAt_whole {S : Shape} (hS : S.rank = 3) {M : Memref sig .tc .vmem S .f32} (h : M.IsWhole) {off : Fin S.rank → Nat}
    (hoff : off = fun _ => 0) (inb : ∀ a, off a + S.size a ≤ S.size a) (x : Vec F S .f32) :
    View.readAt (Elt F) M.view (Rect.unit off S.size inb).toLoadRect (h.unread x) = x := by
  rw [View.readAt_eq_ld, h.read_unread, View.ld_unit_zero hoff]

/-- A store of a whole block, made last, leaves its payload, whatever was stored before it. -/
theorem read_store_whole {S : Shape} {M : Memref sig .tc .vmem S .f32} {off : Fin S.rank → Nat}
    (hoff : off = fun _ => 0) (inb : ∀ a, off a + S.size a ≤ S.size a) (f : M.view.ty.Contents (Elt F)) (w : Vec F S .f32)
    (L : List (View.Piece (Elt F) S .f32)) :
    M.view.read (Elt F) (M.view.writes (Elt F) f ((⟨Rect.unit off S.size inb, w⟩ : View.Piece (Elt F) S .f32) :: L)) = w := by
  funext y
  rw [View.read_writes_apply_eq_canon _ _ y _ ⟨_, List.mem_cons_self, View.mem_set_unit_zero hoff inb y⟩,
    View.canon_cons_unit_zero hoff]

/-! ## The kernel body on any staging memrefs -/

/-- What the body leaves in the output tile's staging buffer: where the tile meets the band, the select chain over the
    four loaded blocks; elsewhere the zero tile. -/
def outTile (i : grid0.Coords) (x0 : Vec F S1x1x1024 .f32) (x1 x2 : Vec F S1x1024x1 .f32) (x3 : Vec F S1x1x1024 .f32) :
    Vec F S1x1024x1024 .f32 :=
  if k0_cond2 i = 1#1 then k0_pay2 i x0 x1 x2 x3 else k0_pay1

set_option maxHeartbeats 1600000 in
/-- On whole staging memrefs holding the four input blocks, at a grid point where one of the two conditions holds, the
    body runs to the continuation with the input blocks as they were and the output buffer at `outTile`. -/
theorem kernelRun (c : Dev nD) (i : grid0.Coords)
    (M0 : Memref sig .tc .vmem S1x1x1024 .f32) (h0 : M0.IsWhole) (M1 : Memref sig .tc .vmem S1x1024x1 .f32) (h1 : M1.IsWhole)
    (M2 : Memref sig .tc .vmem S1x1024x1 .f32) (h2 : M2.IsWhole) (M3 : Memref sig .tc .vmem S1x1x1024 .f32) (h3 : M3.IsWhole)
    (M4 : Memref sig .tc .vmem S1x1024x1024 .f32) (h4 : M4.IsWhole)
    (hcov : k0_cond1 i = 1#1 ∨ k0_cond2 i = 1#1)
    (x0 : Vec F S1x1x1024 .f32) (x1 : Vec F S1x1024x1 .f32) (x2 : Vec F S1x1024x1 .f32) (x3 : Vec F S1x1x1024 .f32)
    (E : Set ℕ) (K : PUnit → sProp 𝕄) :
    iprop(owns (c : Thread nD τ) M0 fullShare x0 ∗ owns (c : Thread nD τ) M1 fullShare x1 ∗ owns (c : Thread nD τ) M2 fullShare x2
        ∗ owns (c : Thread nD τ) M3 fullShare x3 ∗ (∃ d, owns (c : Thread nD τ) M4 fullShare d)
        ∗ (iprop(owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare (outTile i x0 x1 x2 x3)) -∗ K ⟨⟩))
      ⊢ wp frame (wpE (defs₀ (F := F)) 𝒱₀ c none) E (cc0__adjacency_kernel i M0 h0 M1 h1 M2 h2 M3 h3 M4 h4) K := by
  simp only [cc0__adjacency_kernel_eq_skeleton]; unfold cc0__adjacency_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := h0.eq_unread hf0; obtain rfl := h1.eq_unread hf1; obtain rfl := h2.eq_unread hf2; obtain rfl := h3.eq_unread hf3
  by_cases hc2 : k0_cond2 i = 1#1
  · have e : outTile i x0 x1 x2 x3 = k0_pay2 i x0 x1 x2 x3 := if_pos hc2
    rw [e]
    by_cases hc1 : k0_cond1 i = 1#1
    · sl_exec (disch := first | exact hc1 | exact hc2)
      sl_step
      iapply Hk
      isplitl [H0]; · iexists _; isplitr; · ipureintro; exact hf0
                      iexact H0
      isplitl [H1]; · iexists _; isplitr; · ipureintro; exact hf1
                      iexact H1
      isplitl [H2]; · iexists _; isplitr; · ipureintro; exact hf2
                      iexact H2
      isplitl [H3]; · iexists _; isplitr; · ipureintro; exact hf3
                      iexact H3
      iexists _; isplitr; swap; · iexact H4
      ipureintro
      rw [read_store_whole zero3, readAt_whole rfl h0 zero3, readAt_whole rfl h1 zero3, readAt_whole rfl h2 zero3, readAt_whole rfl h3 zero3]
    · sl_exec (disch := first | exact hc1 | exact hc2)
      sl_step
      iapply Hk
      isplitl [H0]; · iexists _; isplitr; · ipureintro; exact hf0
                      iexact H0
      isplitl [H1]; · iexists _; isplitr; · ipureintro; exact hf1
                      iexact H1
      isplitl [H2]; · iexists _; isplitr; · ipureintro; exact hf2
                      iexact H2
      isplitl [H3]; · iexists _; isplitr; · ipureintro; exact hf3
                      iexact H3
      iexists _; isplitr; swap; · iexact H4
      ipureintro
      rw [read_store_whole zero3, readAt_whole rfl h0 zero3, readAt_whole rfl h1 zero3, readAt_whole rfl h2 zero3, readAt_whole rfl h3 zero3]
  · have hc1 : k0_cond1 i = 1#1 := hcov.resolve_right hc2
    have e : outTile i x0 x1 x2 x3 = k0_pay1 := if_neg hc2
    rw [e]
    sl_exec (disch := first | exact hc1 | exact hc2)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    iexists _; isplitr; swap; · iexact H4
    ipureintro
    rw [read_store_whole zero3]

/-! ## The staging memrefs at a point -/

abbrev ms0_0 (t : Fin cfg0.N) : Memref sig .tc .vmem S1x1x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1024 .f32 := win0_4.stage (cfg0.slots t 4)
abbrev hs0_4 (t : Fin cfg0.N) : (ms0_4 t).IsWhole := hstage0_4 ((cfg0.slots t 4).cast nbuf0_4)

/-- The output tile the body leaves at point `t`: `outTile` of the point's coordinates and its four input blocks. -/
def outAt (c : Dev nD) (t : Fin cfg0.N) : Vec F S1x1024x1024 .f32 :=
  outTile (grid0.coords t) (iblk m c 0 t) (iblk m c 1 t) (iblk m c 2 t) (iblk m c 3 t)

/-! ## The pipeline's proof data -/

/-- The arrays as the region finds them; after the body each input's buffer still at its block and the output's at
    `outAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

/-- Each input's staging buffer holds its block when the body runs, fetched at the point or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- No grid point is idle for the output: one of the two stores is always made. -/
theorem not_idle (t : Fin cfg0.N) : idle0 4 (grid0.coords t) = false := by
  show (!(k0_cond1 (grid0.coords t) == 1#1) && !(k0_cond2 (grid0.coords t) == 1#1)) = false
  rcases cond_cover t with h | h <;> simp [h]

set_option maxHeartbeats 1600000 in
/-- At every point the body, called on the current staging buffers — the inputs' holding their blocks, the output's
    anything —, returns them with the inputs unchanged and the output's at `outAt`; the invariant and the empty debt
    pass through unread. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3]
  rw [show (dats m 0 c).Φ t.succ = (dats m 0 c).Φ t.castSucc from rfl,
    show (dats m 0 c).owesAt () t.succ = (dats m 0 c).owesAt () t.castSucc from rfl, after0_0, after0_1, after0_2, after0_3, after0_4]
  rw [not_idle t]
  dsimp only
  unfold outAt
  iintro ⟨HΦ, Ho, ⟨%d0, H0⟩, ⟨%d1, H1⟩, ⟨%d2, H2⟩, ⟨%d3, H3⟩, ⟨%d4, H4⟩⟩
  iapply (kernelRun c (grid0.coords t) _ _ _ _ _ _ _ _ _ _ (cond_cover t) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-! ## The run and the frame -/

set_option backward.isDefEq.respectTransparency.types false in
/-- From any memory with zero counters every weakly fair execution of @main terminates, and every final state has every
    array of the pipeline at what the proof data give and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The frame: the program runs to the end, faults nowhere, and leaves its argument array as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.KernelIdealTiles.lean ====
/-
  The tiling of the 4 x 4096 x 4096 matrix by the 64 grid points: point (b, ri, ci) owns the tile of batch b whose rows
  are 1024 * ri .. 1024 * ri + 1023 and whose columns are 1024 * ci .. 1024 * ci + 1023; the input blocks it reads are
  the 1024 entries of the flattened weight vectors indexed by the tile's columns (windows 0 and 3) and rows (windows 1
  and 2). The index maps are decided once over the grid; the tiles cover the matrix by arithmetic.
-/
import proofs.«100916_j78520592106142_2_alg».proof.Proof.Gen.KernelIdeal.Frame
import proofs.«100916_j78520592106142_2_alg».proof.Proof.Gen.KernelIdeal.Skeleton
import Idealize.ShloMosaic.Lib.Tactic
import Idealize.ShloMosaic.Lib.Pipeline.Value

set_option maxRecDepth 16384

noncomputable section

namespace Cert.KernelIdeal.Tiles

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- The printed index maps over the grid: the output's block indices are the point's coordinates (batch, row tile,
    column tile); each input's are the batch and the one tile coordinate it moves with. -/
theorem idx_facts : ∀ t : Fin cfg0.N,
    win0_4.index t (0 : Fin 3) = ((grid0.coords t) 0).val ∧ win0_4.index t (1 : Fin 3) = ((grid0.coords t) 1).val
    ∧ win0_4.index t (2 : Fin 3) = ((grid0.coords t) 2).val
    ∧ win0_0.index t (0 : Fin 3) = ((grid0.coords t) 0).val ∧ win0_0.index t (1 : Fin 3) = 0 ∧ win0_0.index t (2 : Fin 3) = ((grid0.coords t) 2).val
    ∧ win0_1.index t (0 : Fin 3) = ((grid0.coords t) 0).val ∧ win0_1.index t (1 : Fin 3) = ((grid0.coords t) 1).val ∧ win0_1.index t (2 : Fin 3) = 0
    ∧ win0_2.index t (0 : Fin 3) = ((grid0.coords t) 0).val ∧ win0_2.index t (1 : Fin 3) = ((grid0.coords t) 1).val ∧ win0_2.index t (2 : Fin 3) = 0
    ∧ win0_3.index t (0 : Fin 3) = ((grid0.coords t) 0).val ∧ win0_3.index t (1 : Fin 3) = 0 ∧ win0_3.index t (2 : Fin 3) = ((grid0.coords t) 2).val :=
  (by decide +kernel : ∀ t : Fin grid0.N, _)

/-- Every (batch, row tile, column tile) is some grid point's. -/
theorem idx_onto : ∀ (q0 q1 q2 : Fin 4), ∃ t : Fin cfg0.N, win0_4.index t = ![q0.val, q1.val, q2.val] :=
  (by decide +kernel : ∀ (q0 q1 q2 : Fin 4), ∃ t : Fin grid0.N, win0_4.index t = ![q0.val, q1.val, q2.val])

theorem coords_lt (t : Fin cfg0.N) (a : Fin 3) : ((grid0.coords t) a).val < 4 :=
  (by decide +kernel : ∀ (t : Fin grid0.N) (a : Fin 3), ((grid0.coords t) a).val < 4) t a

/-- An index of the matrix is in point `t`'s tile iff each coordinate is in the tile's range on its axis. -/
theorem mem_blk4 (t : Fin cfg0.N) (i : S4x4096x4096.Idx) :
    i ∈ ((cfg0.win 4).blk t).view.set ↔ ∀ a : Fin 3, win0_4.index t a * S1x1024x1024.size a ≤ (i a).val ∧ (i a).val < win0_4.index t a * S1x1024x1024.size a + S1x1024x1024.size a := by
  show i ∈ ((View.whole main_v20).slice (win0_4.rect t)).set ↔ _
  rw [View.set_slice_whole, Rect.mem_set_unit]
  exact Iff.rfl

/-- The tiles cover the matrix. -/
theorem cover4 (i : S4x4096x4096.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, hi0⟩ ⟨(i 1).val / 1024, by omega⟩ ⟨(i 2).val / 1024, by omega⟩
  have q0 : win0_4.index t (0 : Fin 3) = (i 0).val := congrFun ht 0
  have q1 : win0_4.index t (1 : Fin 3) = (i 1).val / 1024 := congrFun ht 1
  have q2 : win0_4.index t (2 : Fin 3) = (i 2).val / 1024 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

end Cert.KernelIdeal.Tiles

end
-- ==== Proof.KernelPayload.lean ====
/-
  The values the kernel body stores into its 1024 x 1024 output tile, read at one index.

  At grid point (b, I, J) the tile covers rows R = 1024 I + p and columns C = 1024 J + q of the matrix. The body forms
  the 32-bit word of R - C (two iotas, the scalar 1024 I - 1024 J broadcast), compares it with 64, -64, -1 and 1, and
  selects, in that order of precedence, the row block at column q, the first column block at row p, the second column
  block at row p, the second row block at column q, and zero where none of the four diagonals is met. Nothing wraps:
  |R - C| < 4096. The other store writes the zero tile. The two branch conditions are read as conditions on (I, J):
  the tile meets one of the four diagonals exactly when |I - J| <= 1.
-/
import proofs.«100916_j78520592106142_2_alg».proof.Proof.Gen.KernelIdeal.Skeleton
import Idealize.ShloMosaic.Lib.ValueIdx
import Idealize.ShloMosaic.Lib.Pipeline.Value
import Idealize.ShloMosaic.Lib.Affine
import Idealize.ShloMosaic.PureOps.Ideal.Laws

noncomputable section

namespace Cert.Adjacency.Kernel

open Idealize.ShloMosaic Idealize.ShloMosaic.ValueIdx Idealize.SL.Sem
open Cert.KernelIdeal Cert.KernelIdeal.Gen

/-! ## The difference word -/

/-- The word the body compares: 1024 a - 1024 b as a scalar, plus the row iota minus the column iota. -/
def diffWord (a b p q : ℕ) : BitVec 32 :=
  Scalar.addi (Scalar.subi (Scalar.muli (BitVec.ofNat 32 a) 1024#32) (Scalar.muli (BitVec.ofNat 32 b) 1024#32))
    (Scalar.subi (BitVec.ofNat 32 p) (BitVec.ofNat 32 q))

/-- Read signed, the difference word is the integer (1024 a + p) - (1024 b + q): no step wraps. -/
theorem diffWord_isInt (a b p q : ℕ) (ha : a < 4) (hb : b < 4) (hp : p < 1024) (hq : q < 1024) :
    Affine.IsInt (diffWord a b p q) ((1024 * (a : ℤ) + p) - (1024 * (b : ℤ) + q)) := by
  unfold diffWord
  have h1 : Affine.IsInt (Scalar.muli (BitVec.ofNat 32 a) 1024#32) (1024 * (a : ℤ)) :=
    Affine.muli (Affine.ofNat a ⟨rfl, by omega⟩) (Affine.ofNat 1024 ⟨rfl, by omega⟩) ⟨by push_cast; ring, by omega, by omega⟩
  have h2 : Affine.IsInt (Scalar.muli (BitVec.ofNat 32 b) 1024#32) (1024 * (b : ℤ)) :=
    Affine.muli (Affine.ofNat b ⟨rfl, by omega⟩) (Affine.ofNat 1024 ⟨rfl, by omega⟩) ⟨by push_cast; ring, by omega, by omega⟩
  have h3 : Affine.IsInt (Scalar.subi (BitVec.ofNat 32 p) (BitVec.ofNat 32 q)) ((p : ℤ) - q) :=
    Affine.subi (Affine.ofNat p ⟨rfl, by omega⟩) (Affine.ofNat q ⟨rfl, by omega⟩) ⟨rfl, by omega, by omega⟩
  exact Affine.addi (Affine.subi h1 h2 ⟨rfl, by omega, by omega⟩) h3 ⟨by ring, by omega, by omega⟩

/-- The comparison of the difference word with a literal read signed as d is the bit of "R - C = d". -/
theorem cmpi_diffWord (a b p q : ℕ) (ha : a < 4) (hb : b < 4) (hp : p < 1024) (hq : q < 1024)
    (n : ℕ) (d : ℤ) (hn : Affine.IsInt (BitVec.ofNat 32 n) d) :
    IntOp.cmpi .eq (diffWord a b p q) (BitVec.ofNat 32 n)
      = if (1024 * (a : ℤ) + p) - (1024 * (b : ℤ) + q) = d then 1#1 else 0#1 := by
  have hw := diffWord_isInt a b p q ha hb hp hq
  split
  · next h => exact Affine.eq_holds hw hn h
  · next h => exact eq_zero_of_ne_one (Affine.eq_fails hw hn h)

/-- A select on the bit of a decidable proposition is the if on the proposition. -/
theorem select_ite {α : Type} (c : Prop) [Decidable c] (x y : α) :
    Scalar.select (if c then 1#1 else 0#1) x y = if c then x else y := by
  split
  · exact select_one x y
  · exact select_zero x y

/-! ## The body's layout operations at an index -/

/-- A [1,1,1024] block viewed as one row and broadcast down the tile reads, at (p, q), the block at column q. -/
theorem rowBlock_apply {α : Type} (v : S1x1x1024.Idx → α) (p q : Fin 1024)
    (h1 : S1x1x1024.ShapeCasts S1x1024) (h2 : S1x1024.ShapeCasts S1x1024) (h3 : S1x1024.Broadcasts S1024x1024) :
    broadcastTo S1024x1024 (shapeCast S1x1024 (shapeCast S1x1024 v h1) h2) h3 (ix2 p q) = v (ix3 0 0 q) := by
  rw [shapeCast_self]
  refine (broadcastTo_apply (s := S1x1024) _ _ (ix2 p q) (ix2 (0 : Fin 1) q) (fun a => match a with | ⟨0, _⟩ => rfl | ⟨1, _⟩ => rfl)).trans ?_
  exact shapeCast_apply _ _ (ix2 (0 : Fin 1) q) (ix3 0 0 q) (by
    rw [Shape.rowMajor_val_three, Shape.rowMajor_val_two]
    show (0 * 1 + 0) * 1024 + q.val = 0 * 1024 + q.val
    omega)

/-- A [1,1024,1] block viewed as one column and broadcast across the tile reads, at (p, q), the block at row p. -/
theorem colBlock_apply {α : Type} (v : S1x1024x1.Idx → α) (p q : Fin 1024)
    (h1 : S1x1024x1.ShapeCasts S1024x1) (h2 : S1024x1.ShapeCasts S1024x1) (h3 : S1024x1.Broadcasts S1024x1024) :
    broadcastTo S1024x1024 (shapeCast S1024x1 (shapeCast S1024x1 v h1) h2) h3 (ix2 p q) = v (ix3 0 p 0) := by
  rw [shapeCast_self]
  refine (broadcastTo_apply (s := S1024x1) _ _ (ix2 p q) (ix2 p (0 : Fin 1)) (fun a => match a with | ⟨0, _⟩ => rfl | ⟨1, _⟩ => rfl)).trans ?_
  exact shapeCast_apply _ _ (ix2 p (0 : Fin 1)) (ix3 0 p 0) (by
    rw [Shape.rowMajor_val_three, Shape.rowMajor_val_two]
    show (0 * 1024 + p.val) * 1 + 0 = p.val * 1 + 0
    omega)

/-- The compared vector at (p, q) is the difference word of the grid point's tile coordinates and (p, q). -/
theorem diff_apply (a b : ℕ) (p q : Fin 1024)
    (h0 : S1024x1024.Iotas .tc 32 [0]) (h1 : S1024x1024.Iotas .tc 32 [1]) :
    addi (broadcast S1024x1024 (Scalar.subi (Scalar.muli (BitVec.ofNat 32 a) 1024#32) (Scalar.muli (BitVec.ofNat 32 b) 1024#32)))
      (subi (iota .tc S1024x1024 32 [0] h0) (iota .tc S1024x1024 32 [1] h1)) (ix2 p q) = diffWord a b p.val q.val := by
  show IntOp.addi _ (IntOp.subi (iota .tc S1024x1024 32 [0] h0 (ix2 p q)) (iota .tc S1024x1024 32 [1] h1 (ix2 p q))) = _
  rw [iota_single_apply, iota_single_apply]
  rfl

/-- An integer comparison at an index compares the words there. -/
theorem cmpi_apply' {s : Shape} {w : ℕ} (pr : CmpIPredicate) (x y : IVec s w) (j : s.Idx) :
    cmpi pr x y j = IntOp.cmpi pr (x j) (y j) := rfl

/-! ## The two stored values -/

/-- The zero tile: the first store writes 0 everywhere. -/
theorem k0_pay1_apply (j : S1x1024x1024.Idx) : k0_pay1 (F := Ideal) j = (0 : EReal) := by
  unfold k0_pay1
  exact Ideal.ofBits_zero_f32

/-- THE BAND TILE at (0, p, q), with R = 1024 I + p and C = 1024 J + q the matrix row and column under it: the row
    block v30 at q on the diagonal R = C + 64, the column block v32 at p on C = R + 64, the column block v34 at p on
    C = R + 1, the row block v36 at q on R = C + 1, and zero off the four diagonals. -/
theorem k0_pay2_apply (i : grid0.Coords) (v30 : Vec Ideal S1x1x1024 .f32) (v32 v34 : Vec Ideal S1x1024x1 .f32)
    (v36 : Vec Ideal S1x1x1024 .f32) (p q : Fin 1024) :
    k0_pay2 (F := Ideal) i v30 v32 v34 v36 (ix3 0 p q)
      = if 1024 * (i 1).val + p.val = 1024 * (i 2).val + q.val + 64 then v30 (ix3 0 0 q)
        else if 1024 * (i 2).val + q.val = 1024 * (i 1).val + p.val + 64 then v32 (ix3 0 p 0)
        else if 1024 * (i 2).val + q.val = 1024 * (i 1).val + p.val + 1 then v34 (ix3 0 p 0)
        else if 1024 * (i 1).val + p.val = 1024 * (i 2).val + q.val + 1 then v36 (ix3 0 0 q)
        else (0 : EReal) := by
  have hI : (i 1).val < 4 := (i 1).isLt
  have hJ : (i 2).val < 4 := (i 2).isLt
  have hp : p.val < 1024 := p.isLt
  have hq : q.val < 1024 := q.isLt
  unfold k0_pay2
  dsimp only
  refine (shapeCast_apply _ _ (ix3 0 p q) (ix2 p q) (by
    rw [Shape.rowMajor_val_two, Shape.rowMajor_val_three]
    show p.val * 1024 + q.val = (0 * 1024 + p.val) * 1024 + q.val
    omega)).trans ?_
  rw [select_apply, select_apply, select_apply, select_apply, cmpi_apply', cmpi_apply', cmpi_apply', cmpi_apply',
    diff_apply, rowBlock_apply, rowBlock_apply, colBlock_apply, colBlock_apply]
  simp only [broadcast_apply]
  rw [cmpi_diffWord _ _ _ _ hI hJ hp hq 64 64 (Affine.ofNat 64 ⟨rfl, by omega⟩),
    cmpi_diffWord _ _ _ _ hI hJ hp hq 4294967232 (-64) (Affine.ofNat_neg 4294967232 ⟨by norm_num, by omega, by omega⟩),
    cmpi_diffWord _ _ _ _ hI hJ hp hq 4294967295 (-1) (Affine.ofNat_neg 4294967295 ⟨by norm_num, by omega, by omega⟩),
    cmpi_diffWord _ _ _ _ hI hJ hp hq 1 1 (Affine.ofNat 1 ⟨rfl, by omega⟩),
    select_ite, select_ite, select_ite, select_ite]
  have hz : (FloatOps.ofBits FTy.f32 0#32 : Ideal .f32) = (0 : EReal) := Ideal.ofBits_zero_f32
  rw [hz]
  have e1 : ((1024 * ((i 1).val : ℤ) + p.val) - (1024 * ((i 2).val : ℤ) + q.val) = 64) ↔ 1024 * (i 1).val + p.val = 1024 * (i 2).val + q.val + 64 := by omega
  have e2 : ((1024 * ((i 1).val : ℤ) + p.val) - (1024 * ((i 2).val : ℤ) + q.val) = -64) ↔ 1024 * (i 2).val + q.val = 1024 * (i 1).val + p.val + 64 := by omega
  have e3 : ((1024 * ((i 1).val : ℤ) + p.val) - (1024 * ((i 2).val : ℤ) + q.val) = -1) ↔ 1024 * (i 2).val + q.val = 1024 * (i 1).val + p.val + 1 := by omega
  have e4 : ((1024 * ((i 1).val : ℤ) + p.val) - (1024 * ((i 2).val : ℤ) + q.val) = 1) ↔ 1024 * (i 1).val + p.val = 1024 * (i 2).val + q.val + 1 := by omega
  simp only [e1, e2, e3, e4]

/-! ## The two branch conditions over the grid -/

/-- The band branch is taken exactly at the grid points whose row tile and column tile are equal or adjacent: the tile
    of a point with |I - J| <= 1 meets one of the four diagonals, a tile further off meets none. -/
theorem k0_cond2_iff (i : grid0.Coords) :
    k0_cond2 i = 1#1 ↔ (i 1).val ≤ (i 2).val + 1 ∧ (i 2).val ≤ (i 1).val + 1 := by
  have hI : (i 1).val < 4 := (i 1).isLt
  have hJ : (i 2).val < 4 := (i 2).isLt
  unfold k0_cond2
  generalize (i 1).val = a at hI ⊢
  generalize (i 2).val = b at hJ ⊢
  interval_cases a <;> interval_cases b <;> decide +kernel

/-- The zero branch is taken exactly where the band branch is not. -/
theorem k0_cond1_iff (i : grid0.Coords) : k0_cond1 i = 1#1 ↔ ¬ k0_cond2 i = 1#1 := by
  have hI : (i 1).val < 4 := (i 1).isLt
  have hJ : (i 2).val < 4 := (i 2).isLt
  unfold k0_cond1 k0_cond2
  generalize (i 1).val = a at hI ⊢
  generalize (i 2).val = b at hJ ⊢
  interval_cases a <;> interval_cases b <;> decide +kernel

/-- The same two facts at the points of the grid in the order they are run. -/
theorem k0_cond2_coords (t : Fin grid0.N) :
    k0_cond2 (grid0.coords t) = 1#1
      ↔ ((grid0.coords t) 1).val ≤ ((grid0.coords t) 2).val + 1 ∧ ((grid0.coords t) 2).val ≤ ((grid0.coords t) 1).val + 1 :=
  k0_cond2_iff _

theorem k0_cond1_coords (t : Fin grid0.N) :
    k0_cond1 (grid0.coords t) = 1#1 ↔ ¬ k0_cond2 (grid0.coords t) = 1#1 :=
  k0_cond1_iff _

end Cert.Adjacency.Kernel

end
-- ==== Proof.Spec.lean ====
/-
  The banded adjacency matrix of a 64 x 64 grid of nodes, as ONE function of the two weight arrays.

  Node n = 64 * y + x sits in row y, column x of the grid. The vertical weight dv(b, y, x) (y < 63) joins node
  64 * y + x to the node below it, 64 * (y + 1) + x; the horizontal weight dh(b, y, x) (x < 63) joins node
  64 * y + x to its right neighbour 64 * y + x + 1. The matrix entry at (b, r, c) is therefore
    dv at node c   when r = c + 64,      dv at node r   when c = r + 64,
    dh at node r   when c = r + 1,       dh at node c   when r = c + 1,
  and zero everywhere else, where "dv at node n" is zero on the last grid row (n >= 4032) and "dh at node n" is zero
  in the last grid column (n % 64 = 63): those two conventions are what padding the weight arrays with a trailing
  zero row / column and flattening them computes, and also exactly the entries no edge ever writes.
  The four diagonals r - c = 64, -64, -1, 1 are pairwise different, so the order of the four cases is immaterial.
-/
import Idealize.ShloMosaic.PureOps.Ideal
import Idealize.ShloMosaic.Lib.ValueIdx

noncomputable section

namespace Cert.Adjacency

open Idealize.ShloMosaic Idealize.ShloMosaic.ValueIdx

/-- The shape of the vertical weights, of the horizontal weights, and of the matrix. -/
abbrev SDv : Shape := ⟨3, ![4, 63, 64]⟩
abbrev SDh : Shape := ⟨3, ![4, 64, 63]⟩
abbrev SAdj : Shape := ⟨3, ![4, 4096, 4096]⟩

/-- The vertical weight carried by node `n`: `dv (b, n / 64, n % 64)` below the last grid row, zero on it. -/
def dvNode (dv : SDv.Idx → EReal) (b : Fin 4) (n : ℕ) : EReal :=
  if h : n < 4032 then dv (ix3 b ⟨n / 64, by omega⟩ ⟨n % 64, by omega⟩) else 0

/-- The horizontal weight carried by node `n`: `dh (b, n / 64, n % 64)` left of the last grid column, zero in it. -/
def dhNode (dh : SDh.Idx → EReal) (b : Fin 4) (n : ℕ) : EReal :=
  if h : n < 4096 ∧ n % 64 < 63 then dh (ix3 b ⟨n / 64, by omega⟩ ⟨n % 64, h.2⟩) else 0

/-- The adjacency matrix at row `r` and column `c` (as natural numbers) of batch `b`. -/
def adjAt (dv : SDv.Idx → EReal) (dh : SDh.Idx → EReal) (b : Fin 4) (r c : ℕ) : EReal :=
  if r = c + 64 then dvNode dv b c
  else if c = r + 64 then dvNode dv b r
  else if c = r + 1 then dhNode dh b r
  else if r = c + 1 then dhNode dh b c
  else 0

/-- The adjacency matrix as an array. -/
def adj (dv : SDv.Idx → EReal) (dh : SDh.Idx → EReal) : SAdj.Idx → EReal :=
  fun i => adjAt dv dh (i 0) (i 1).val (i 2).val

theorem adj_apply (dv : SDv.Idx → EReal) (dh : SDh.Idx → EReal) (b : Fin 4) (r c : Fin 4096) :
    adj dv dh (ix3 b r c) = adjAt dv dh b r.val c.val := rfl

/-- Off the band `|r - c| ≤ 64` the matrix is zero. -/
theorem adjAt_eq_zero_of_far (dv : SDv.Idx → EReal) (dh : SDh.Idx → EReal) (b : Fin 4) (r c : ℕ)
    (h : r + 64 < c ∨ c + 64 < r) : adjAt dv dh b r c = 0 := by
  unfold adjAt
  rw [if_neg (by omega), if_neg (by omega), if_neg (by omega), if_neg (by omega)]

end Cert.Adjacency

end
-- ==== Proof.KernelArrays.lean ====
/-
  What the four input arrays of the kernel hold when its region is entered.

  Before the call the host computes the vertical weights dv, of shape [4, 63, 64], and the horizontal weights dh, of
  shape [4, 64, 63], each a sum over three axes of absolute differences of the argument array; pads dv with a zero
  last row and dh with a zero last column to [4, 64, 64]; flattens each to [4, 4096]; and views each flat array once
  as a row [4, 1, 4096] and once as a column [4, 4096, 1]. Entry n of a flat array is therefore the weight at node n
  (row n / 64, column n % 64 of the grid), zero where the padding sits: on the last grid row for dv (n >= 4032), in the
  last grid column for dh (n % 64 = 63). The two sums are kept as they are computed; only the layout is read.
-/
import proofs.«100916_j78520592106142_2_alg».proof.Proof.Gen.KernelIdeal.Frame
import proofs.«100916_j78520592106142_2_alg».proof.Proof.Spec
import Idealize.ShloMosaic.Lib.StableHlo.Run
import Idealize.ShloMosaic.Lib.KernelVsHost

set_option maxRecDepth 16384

noncomputable section

namespace Cert.Adjacency.Kernel

open Idealize.ShloMosaic Idealize.ShloMosaic.ValueIdx Idealize.SL.Sem Idealize.ShloMosaic.TcCoe
open Cert.KernelIdeal Cert.KernelIdeal.Gen Idealize.ShloMosaic.StableHlo

/-! ## The two weight arrays, as the host computes them -/

/-- The vertical weights. The argument array is viewed [4, 3, 64, 16, 64, 16] and cut to the cells [4, 3, 64, 15, 64, 15];
    dv is the sum over axes 1, 3 and 5 of the absolute difference of each cell and the cell one grid row above it. -/
def dvK (x0 : (⟨S4x3x1024x1024, .f32⟩ : BufTy).Contents (Elt Ideal)) : Cert.Adjacency.SDv.Idx → EReal :=
  Host.reduceAdd (F := Ideal)
    (Host.absf (F := Ideal) (subf (F := Ideal)
      (extractStridedSlice S4x3x63x15x64x15 ![0, 0, 1, 0, 0, 0] (extractStridedSlice S4x3x64x15x64x15 ![0, 0, 0, 0, 0, 0]
          (shapeCast S4x3x64x16x64x16 x0 shapeCasts_S4x3x1024x1024_S4x3x64x16x64x16)
          slices_S4x3x64x16x64x16_S4x3x64x15x64x15_0_0_0_0_0_0) slices_S4x3x64x15x64x15_S4x3x63x15x64x15_0_0_1_0_0_0)
      (extractStridedSlice S4x3x63x15x64x15 ![0, 0, 0, 0, 0, 0] (extractStridedSlice S4x3x64x15x64x15 ![0, 0, 0, 0, 0, 0]
          (shapeCast S4x3x64x16x64x16 x0 shapeCasts_S4x3x1024x1024_S4x3x64x16x64x16)
          slices_S4x3x64x16x64x16_S4x3x64x15x64x15_0_0_0_0_0_0) slices_S4x3x64x15x64x15_S4x3x63x15x64x15_0_0_0_0_0_0)))
    (constant (F := Ideal) S_ .f32 0x00000000#32) reducesTo_S4x3x63x15x64x15_S4x63x64_d1_3_5 h_S_

/-- The horizontal weights: the same sum of the absolute difference of each cell and the cell one grid column to its
    left. -/
def dhK (x0 : (⟨S4x3x1024x1024, .f32⟩ : BufTy).Contents (Elt Ideal)) : Cert.Adjacency.SDh.Idx → EReal :=
  Host.reduceAdd (F := Ideal)
    (Host.absf (F := Ideal) (subf (F := Ideal)
      (extractStridedSlice S4x3x64x15x63x15 ![0, 0, 0, 0, 1, 0] (extractStridedSlice S4x3x64x15x64x15 ![0, 0, 0, 0, 0, 0]
          (shapeCast S4x3x64x16x64x16 x0 shapeCasts_S4x3x1024x1024_S4x3x64x16x64x16)
          slices_S4x3x64x16x64x16_S4x3x64x15x64x15_0_0_0_0_0_0) slices_S4x3x64x15x64x15_S4x3x64x15x63x15_0_0_0_0_1_0)
      (extractStridedSlice S4x3x64x15x63x15 ![0, 0, 0, 0, 0, 0] (extractStridedSlice S4x3x64x15x64x15 ![0, 0, 0, 0, 0, 0]
          (shapeCast S4x3x64x16x64x16 x0 shapeCasts_S4x3x1024x1024_S4x3x64x16x64x16)
          slices_S4x3x64x16x64x16_S4x3x64x15x64x15_0_0_0_0_0_0) slices_S4x3x64x15x64x15_S4x3x64x15x63x15_0_0_0_0_0_0)))
    (constant (F := Ideal) S_ .f32 0x00000000#32) reducesTo_S4x3x64x15x63x15_S4x64x63_d1_3_5 h_S_

/-- The padding value: the integer constant 0 converted to a float. -/
def padZero : S_.Idx → EReal := sitofp (F := Ideal) .f32 (constantI S_ 32 0#32)

/-- dv with a zero last row, flattened to [4, 4096]. -/
def dvFlat (dv : Cert.Adjacency.SDv.Idx → EReal) : S4x4096.Idx → EReal :=
  shapeCast S4x4096 (pad S4x64x64 ![0, 0, 0] ![0, 1, 0] ![0, 0, 0] dv padZero pads_S4x63x64_S4x64x64_000_010_000 h_S_)
    shapeCasts_S4x64x64_S4x4096

/-- dh with a zero last column, flattened to [4, 4096]. -/
def dhFlat (dh : Cert.Adjacency.SDh.Idx → EReal) : S4x4096.Idx → EReal :=
  shapeCast S4x4096 (pad S4x64x64 ![0, 0, 0] ![0, 0, 1] ![0, 0, 0] dh padZero pads_S4x64x63_S4x64x64_000_000_010 h_S_)
    shapeCasts_S4x64x64_S4x4096

/-! ## The flat arrays at an index -/

/-- The padding value is the extended real zero. -/
theorem padZero_apply (j : S_.Idx) : padZero j = 0 := by
  show ((((0#32 : BitVec 32).toInt : ℤ) : ℝ) : EReal) = 0
  simp

/-- Entry (b, n) of the flat padded dv is the vertical weight at node n: dv (b, n / 64, n % 64) below the last grid
    row, the padding's zero on it. -/
theorem dvFlat_apply (dv : Cert.Adjacency.SDv.Idx → EReal) (b : Fin 4) (n : Fin 4096) :
    dvFlat dv (ix2 b n) = Cert.Adjacency.dvNode dv b n.val := by
  have hn : n.val < 4096 := n.isLt
  have hb : b.val < 4 := b.isLt
  unfold dvFlat Cert.Adjacency.dvNode
  refine (shapeCast_apply _ _ (ix2 b n) (ix3 b (⟨n.val / 64, by omega⟩ : Fin 64) (⟨n.val % 64, by omega⟩ : Fin 64)) (by
    rw [Shape.rowMajor_val_three, Shape.rowMajor_val_two]
    show (b.val * 64 + n.val / 64) * 64 + n.val % 64 = b.val * 4096 + n.val
    omega)).trans ?_
  split
  · next h =>
    exact pad_apply_of_inside _ _ _ dv padZero _ _ _ (ix3 b (⟨n.val / 64, by omega⟩ : Fin 63) (⟨n.val % 64, by omega⟩ : Fin 64))
      (fun a => match a with
        | ⟨0, _⟩ => by show b.val = 0 + b.val * (0 + 1); omega
        | ⟨1, _⟩ => by show n.val / 64 = 0 + n.val / 64 * (0 + 1); omega
        | ⟨2, _⟩ => by show n.val % 64 = 0 + n.val % 64 * (0 + 1); omega)
  · next h =>
    refine (pad_apply_of_not_inside _ _ _ dv padZero _ _ _ (1 : Fin 3) ?_).trans (padZero_apply _)
    show ¬(0 ≤ n.val / 64 ∧ (n.val / 64 - 0) % (0 + 1) = 0 ∧ (n.val / 64 - 0) / (0 + 1) < 63)
    omega

/-- Entry (b, n) of the flat padded dh is the horizontal weight at node n: dh (b, n / 64, n % 64) left of the last grid
    column, the padding's zero in it. -/
theorem dhFlat_apply (dh : Cert.Adjacency.SDh.Idx → EReal) (b : Fin 4) (n : Fin 4096) :
    dhFlat dh (ix2 b n) = Cert.Adjacency.dhNode dh b n.val := by
  have hn : n.val < 4096 := n.isLt
  have hb : b.val < 4 := b.isLt
  unfold dhFlat Cert.Adjacency.dhNode
  refine (shapeCast_apply _ _ (ix2 b n) (ix3 b (⟨n.val / 64, by omega⟩ : Fin 64) (⟨n.val % 64, by omega⟩ : Fin 64)) (by
    rw [Shape.rowMajor_val_three, Shape.rowMajor_val_two]
    show (b.val * 64 + n.val / 64) * 64 + n.val % 64 = b.val * 4096 + n.val
    omega)).trans ?_
  split
  · next h =>
    exact pad_apply_of_inside _ _ _ dh padZero _ _ _ (ix3 b (⟨n.val / 64, by omega⟩ : Fin 64) (⟨n.val % 64, h.2⟩ : Fin 63))
      (fun a => match a with
        | ⟨0, _⟩ => by show b.val = 0 + b.val * (0 + 1); omega
        | ⟨1, _⟩ => by show n.val / 64 = 0 + n.val / 64 * (0 + 1); omega
        | ⟨2, _⟩ => by show n.val % 64 = 0 + n.val % 64 * (0 + 1); omega)
  · next h =>
    refine (pad_apply_of_not_inside _ _ _ dh padZero _ _ _ (2 : Fin 3) ?_).trans (padZero_apply _)
    show ¬(0 ≤ n.val % 64 ∧ (n.val % 64 - 0) % (0 + 1) = 0 ∧ (n.val % 64 - 0) / (0 + 1) < 63)
    omega

/-- A flat [4, 4096] array viewed as rows [4, 1, 4096] reads entry (b, n) at (b, 0, n). -/
theorem rowView_apply {α : Type} (f : S4x4096.Idx → α) (h : S4x4096.ShapeCasts S4x1x4096) (b : Fin 4) (n : Fin 4096) :
    shapeCast S4x1x4096 f h (ix3 b (0 : Fin 1) n) = f (ix2 b n) :=
  shapeCast_apply _ _ _ (ix2 b n) (by
    rw [Shape.rowMajor_val_three, Shape.rowMajor_val_two]
    show b.val * 4096 + n.val = (b.val * 1 + 0) * 4096 + n.val
    omega)

/-- A flat [4, 4096] array viewed as columns [4, 4096, 1] reads entry (b, n) at (b, n, 0). -/
theorem colView_apply {α : Type} (f : S4x4096.Idx → α) (h : S4x4096.ShapeCasts S4x4096x1) (b : Fin 4) (n : Fin 4096) :
    shapeCast S4x4096x1 f h (ix3 b n (0 : Fin 1)) = f (ix2 b n) :=
  shapeCast_apply _ _ _ (ix2 b n) (by
    rw [Shape.rowMajor_val_three, Shape.rowMajor_val_two]
    show b.val * 4096 + n.val = (b.val * 4096 + n.val) * 1 + 0
    omega)

/-! ## The four arrays when the region is entered -/

variable (m : (ℓ : Loc nD τ sig) → Buf (Elt Ideal) ℓ)

/-- The first operand is the flat padded dv viewed as rows. -/
theorem v16_eq (c : Dev nD) : (V m c main_v16 : S4x1x4096.Idx → EReal)
    = shapeCast S4x1x4096 (dvFlat (dvK (m ((c.tc : Thread nD τ).loc main_arg0)))) shapeCasts_S4x4096_S4x1x4096 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- The second operand is the flat padded dv viewed as columns. -/
theorem v17_eq (c : Dev nD) : (V m c main_v17 : S4x4096x1.Idx → EReal)
    = shapeCast S4x4096x1 (dvFlat (dvK (m ((c.tc : Thread nD τ).loc main_arg0)))) shapeCasts_S4x4096_S4x4096x1 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- The third operand is the flat padded dh viewed as columns. -/
theorem v18_eq (c : Dev nD) : (V m c main_v18 : S4x4096x1.Idx → EReal)
    = shapeCast S4x4096x1 (dhFlat (dhK (m ((c.tc : Thread nD τ).loc main_arg0)))) shapeCasts_S4x4096_S4x4096x1 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- The fourth operand is the flat padded dh viewed as rows. -/
theorem v19_eq (c : Dev nD) : (V m c main_v19 : S4x1x4096.Idx → EReal)
    = shapeCast S4x1x4096 (dhFlat (dhK (m ((c.tc : Thread nD τ).loc main_arg0)))) shapeCasts_S4x4096_S4x1x4096 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- The first operand at (b, 0, n) is the vertical weight at node n. -/
theorem v16_apply (c : Dev nD) (b : Fin 4) (n : Fin 4096) :
    V m c main_v16 (ix3 b (0 : Fin 1) n : S4x1x4096.Idx)
      = Cert.Adjacency.dvNode (dvK (m ((c.tc : Thread nD τ).loc main_arg0))) b n.val := by
  show (V m c main_v16 : S4x1x4096.Idx → EReal) (ix3 b (0 : Fin 1) n) = _
  rw [v16_eq, rowView_apply, dvFlat_apply]

/-- The second operand at (b, n, 0) is the vertical weight at node n. -/
theorem v17_apply (c : Dev nD) (b : Fin 4) (n : Fin 4096) :
    V m c main_v17 (ix3 b n (0 : Fin 1) : S4x4096x1.Idx)
      = Cert.Adjacency.dvNode (dvK (m ((c.tc : Thread nD τ).loc main_arg0))) b n.val := by
  show (V m c main_v17 : S4x4096x1.Idx → EReal) (ix3 b n (0 : Fin 1)) = _
  rw [v17_eq, colView_apply, dvFlat_apply]

/-- The third operand at (b, n, 0) is the horizontal weight at node n. -/
theorem v18_apply (c : Dev nD) (b : Fin 4) (n : Fin 4096) :
    V m c main_v18 (ix3 b n (0 : Fin 1) : S4x4096x1.Idx)
      = Cert.Adjacency.dhNode (dhK (m ((c.tc : Thread nD τ).loc main_arg0))) b n.val := by
  show (V m c main_v18 : S4x4096x1.Idx → EReal) (ix3 b n (0 : Fin 1)) = _
  rw [v18_eq, colView_apply, dhFlat_apply]

/-- The fourth operand at (b, 0, n) is the horizontal weight at node n. -/
theorem v19_apply (c : Dev nD) (b : Fin 4) (n : Fin 4096) :
    V m c main_v19 (ix3 b (0 : Fin 1) n : S4x1x4096.Idx)
      = Cert.Adjacency.dhNode (dhK (m ((c.tc : Thread nD τ).loc main_arg0))) b n.val := by
  show (V m c main_v19 : S4x1x4096.Idx → EReal) (ix3 b (0 : Fin 1) n) = _
  rw [v19_eq, rowView_apply, dhFlat_apply]

end Cert.Adjacency.Kernel

end
-- ==== Proof.KernelIdealValue.lean ====
/-
  What the idealized kernel's run leaves in the matrix: the banded adjacency matrix of the two weight arrays.

  At a grid point (b, ri, ci) the body leaves `outTile` in the output tile. Entry (p, q) of the tile is entry
  (R, C) = (1024 * ri + p, 1024 * ci + q) of the matrix. Where the tile meets the band the select chain picks, by the
  value of R - C among 64, -64, -1, 1, one of the four loaded blocks at column q or row p — and those blocks are the
  flattened, zero-padded weight vectors at node C or node R, which is the specification's `dvNode` / `dhNode` —, and zero
  otherwise: the specification's `adjAt` literally. Where the tile does not meet the band, |ri - ci| ≥ 2, so
  |R - C| > 64 and the specification is zero there too, as is the stored zero tile.
  The tiles cover the matrix, so the final array is the specification everywhere.
-/
import proofs.«100916_j78520592106142_2_alg».proof.Proof.KernelIdealBody
import proofs.«100916_j78520592106142_2_alg».proof.Proof.KernelIdealTiles
import proofs.«100916_j78520592106142_2_alg».proof.Proof.KernelPayload
import proofs.«100916_j78520592106142_2_alg».proof.Proof.KernelArrays
import proofs.«100916_j78520592106142_2_alg».proof.Proof.Spec

set_option maxRecDepth 16384

noncomputable section

namespace Cert.Adjacency.KernelRun

open Cert.KernelIdeal Cert.KernelIdeal.Gen Cert.KernelIdeal.Body Cert.KernelIdeal.Tiles Cert.Adjacency Cert.Adjacency.Kernel

open Idealize.ShloMosaic Idealize.ShloMosaic.ValueIdx
open Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- One tile of the specification: when the four loaded blocks are the node weights of the tile's columns and rows, the
    tile the body leaves at grid coordinates `i` is the specification at rows `1024 * i 1 + p`, columns `1024 * i 2 + q`. -/
theorem outTile_apply (i : grid0.Coords) (x0 : Vec Ideal S1x1x1024 .f32) (x1 x2 : Vec Ideal S1x1024x1 .f32) (x3 : Vec Ideal S1x1x1024 .f32)
    (dv : SDv.Idx → EReal) (dh : SDh.Idx → EReal) (b : Fin 4)
    (h0 : ∀ q : Fin 1024, x0 (ix3 0 0 q) = dvNode dv b (1024 * (i 2).val + q.val))
    (h1 : ∀ p : Fin 1024, x1 (ix3 0 p 0) = dvNode dv b (1024 * (i 1).val + p.val))
    (h2 : ∀ p : Fin 1024, x2 (ix3 0 p 0) = dhNode dh b (1024 * (i 1).val + p.val))
    (h3 : ∀ q : Fin 1024, x3 (ix3 0 0 q) = dhNode dh b (1024 * (i 2).val + q.val))
    (p q : Fin 1024) :
    outTile (F := Ideal) i x0 x1 x2 x3 (ix3 0 p q) = adjAt dv dh b (1024 * (i 1).val + p.val) (1024 * (i 2).val + q.val) := by
  unfold outTile
  by_cases hc2 : k0_cond2 i = 1#1
  · rw [if_pos hc2, k0_pay2_apply, h0, h1, h2, h3]
    rfl
  · rw [if_neg hc2, k0_pay1_apply]
    have hfar := (not_congr (k0_cond2_iff i)).mp hc2
    have hp := p.isLt; have hq := q.isLt
    exact (adjAt_eq_zero_of_far dv dh b _ _ (by omega)).symm

/-- WHAT POINT `t` WRITES BACK is tile `t` of the specification of the two weight arrays. -/
theorem flushed_eq (c : Dev nD) (t : Fin cfg0.N) :
    (dats m 0 c).flushed 4 t = ((cfg0.win 4).blk t).view.read (Elt Ideal)
      (adj (dvK (m ((c.tc : Thread nD τ).loc main_arg0))) (dhK (m ((c.tc : Thread nD τ).loc main_arg0)))) := by
  show (cfg0.win 4).cut (grid0.coords t) ((dats m 0 c).after 4 t) = _
  rw [after0_4]
  obtain ⟨e40, e41, e42, e00, e01, e02, e10, e11, e12, e20, e21, e22, e30, e31, e32⟩ := idx_facts t
  have hb := coords_lt t 0; have hri := coords_lt t 1; have hci := coords_lt t 2
  funext j
  obtain ⟨p, q, rfl⟩ : ∃ (p q : Fin 1024), j = (ix3 (0 : Fin 1) p q : S1x1024x1024.Idx) :=
    ⟨j 1, j 2, by
      funext a
      match a with
      | ⟨0, _⟩ => exact Fin.ext (by have h : (j 0).val < 1 := (j 0).isLt; show (j 0).val = 0; omega)
      | ⟨1, _⟩ => rfl
      | ⟨2, _⟩ => rfl⟩
  show outTile (grid0.coords t) (iblk m c 0 t) (iblk m c 1 t) (iblk m c 2 t) (iblk m c 3 t) (ix3 0 p q)
    = adj _ _ (((cfg0.win 4).blk t).view.emb (ix3 0 p q))
  have hp := p.isLt; have hq := q.isLt
  have e4 : ((cfg0.win 4).blk t).view.emb (ix3 (0 : Fin 1) p q)
      = (ix3 ((grid0.coords t) 0) ⟨1024 * ((grid0.coords t) 1).val + p.val, by omega⟩ ⟨1024 * ((grid0.coords t) 2).val + q.val, by omega⟩ : S4x4096x4096.Idx) := by
    funext a; apply Fin.ext
    match a with
    | ⟨0, _⟩ => show win0_4.index t (0 : Fin 3) * 1 + 1 * 0 = ((grid0.coords t) 0).val; omega
    | ⟨1, _⟩ => show win0_4.index t (1 : Fin 3) * 1024 + 1 * p.val = 1024 * ((grid0.coords t) 1).val + p.val; omega
    | ⟨2, _⟩ => show win0_4.index t (2 : Fin 3) * 1024 + 1 * q.val = 1024 * ((grid0.coords t) 2).val + q.val; omega
  rw [e4]
  show _ = adjAt _ _ ((grid0.coords t) 0) (1024 * ((grid0.coords t) 1).val + p.val) (1024 * ((grid0.coords t) 2).val + q.val)
  refine outTile_apply (grid0.coords t) (iblk m c 0 t) (iblk m c 1 t) (iblk m c 2 t) (iblk m c 3 t) _ _ ((grid0.coords t) 0) ?_ ?_ ?_ ?_ p q
  · intro q'
    have hq' := q'.isLt
    show V m c main_v16 (((cfg0.win 0).blk t).view.emb (ix3 (0 : Fin 1) (0 : Fin 1) q')) = _
    have e : ((cfg0.win 0).blk t).view.emb (ix3 (0 : Fin 1) (0 : Fin 1) q')
        = (ix3 ((grid0.coords t) 0) (0 : Fin 1) ⟨1024 * ((grid0.coords t) 2).val + q'.val, by omega⟩ : S4x1x4096.Idx) := by
      funext a; apply Fin.ext
      match a with
      | ⟨0, _⟩ => show win0_0.index t (0 : Fin 3) * 1 + 1 * 0 = ((grid0.coords t) 0).val; omega
      | ⟨1, _⟩ => show win0_0.index t (1 : Fin 3) * 1 + 1 * 0 = 0; omega
      | ⟨2, _⟩ => show win0_0.index t (2 : Fin 3) * 1024 + 1 * q'.val = 1024 * ((grid0.coords t) 2).val + q'.val; omega
    rw [e]
    exact v16_apply m c _ _
  · intro p'
    have hp' := p'.isLt
    show V m c main_v17 (((cfg0.win 1).blk t).view.emb (ix3 (0 : Fin 1) p' (0 : Fin 1))) = _
    have e : ((cfg0.win 1).blk t).view.emb (ix3 (0 : Fin 1) p' (0 : Fin 1))
        = (ix3 ((grid0.coords t) 0) ⟨1024 * ((grid0.coords t) 1).val + p'.val, by omega⟩ (0 : Fin 1) : S4x4096x1.Idx) := by
      funext a; apply Fin.ext
      match a with
      | ⟨0, _⟩ => show win0_1.index t (0 : Fin 3) * 1 + 1 * 0 = ((grid0.coords t) 0).val; omega
      | ⟨1, _⟩ => show win0_1.index t (1 : Fin 3) * 1024 + 1 * p'.val = 1024 * ((grid0.coords t) 1).val + p'.val; omega
      | ⟨2, _⟩ => show win0_1.index t (2 : Fin 3) * 1 + 1 * 0 = 0; omega
    rw [e]
    exact v17_apply m c _ _
  · intro p'
    have hp' := p'.isLt
    show V m c main_v18 (((cfg0.win 2).blk t).view.emb (ix3 (0 : Fin 1) p' (0 : Fin 1))) = _
    have e : ((cfg0.win 2).blk t).view.emb (ix3 (0 : Fin 1) p' (0 : Fin 1))
        = (ix3 ((grid0.coords t) 0) ⟨1024 * ((grid0.coords t) 1).val + p'.val, by omega⟩ (0 : Fin 1) : S4x4096x1.Idx) := by
      funext a; apply Fin.ext
      match a with
      | ⟨0, _⟩ => show win0_2.index t (0 : Fin 3) * 1 + 1 * 0 = ((grid0.coords t) 0).val; omega
      | ⟨1, _⟩ => show win0_2.index t (1 : Fin 3) * 1024 + 1 * p'.val = 1024 * ((grid0.coords t) 1).val + p'.val; omega
      | ⟨2, _⟩ => show win0_2.index t (2 : Fin 3) * 1 + 1 * 0 = 0; omega
    rw [e]
    exact v18_apply m c _ _
  · intro q'
    have hq' := q'.isLt
    show V m c main_v19 (((cfg0.win 3).blk t).view.emb (ix3 (0 : Fin 1) (0 : Fin 1) q')) = _
    have e : ((cfg0.win 3).blk t).view.emb (ix3 (0 : Fin 1) (0 : Fin 1) q')
        = (ix3 ((grid0.coords t) 0) (0 : Fin 1) ⟨1024 * ((grid0.coords t) 2).val + q'.val, by omega⟩ : S4x1x4096.Idx) := by
      funext a; apply Fin.ext
      match a with
      | ⟨0, _⟩ => show win0_3.index t (0 : Fin 3) * 1 + 1 * 0 = ((grid0.coords t) 0).val; omega
      | ⟨1, _⟩ => show win0_3.index t (1 : Fin 3) * 1 + 1 * 0 = 0; omega
      | ⟨2, _⟩ => show win0_3.index t (2 : Fin 3) * 1024 + 1 * q'.val = 1024 * ((grid0.coords t) 2).val + q'.val; omega
    rw [e]
    exact v19_apply m c _ _

/-- THE MATRIX after the run: the specification of the two weight arrays. -/
theorem final (c : Dev nD) : (dats m 0 c).arrAt 4 cfg0.N
    = adj (dvK (m ((c.tc : Thread nD τ).loc main_arg0))) (dhK (m ((c.tc : Thread nD τ).loc main_arg0))) :=
  (dats m 0 c).arrAt_eq_of_cover 4 _ (fun t _ => flushed_eq m c t) cover4

/-- The idealized kernel's run: it terminates without a fault, the result array is the specification of the weight
    arrays computed from the argument, and the argument is unchanged. -/
theorem run : θ_run defs (onTc (τ := τ) (main (F := Ideal))) ⟨m, fun _ => 0, ρ⟩ fun r => ∀ c : Dev nD,
      r.2.mem ((c.tc : Thread nD τ).loc main_v20)
        = adj (dvK (m ((c.tc : Thread nD τ).loc main_arg0))) (dhK (m ((c.tc : Thread nD τ).loc main_arg0)))
      ∧ r.2.mem ((c.tc : Thread nD τ).loc main_arg0) = m ((c.tc : Thread nD τ).loc main_arg0) :=
  (θ_run defs _ _).mono (fun r h c => ⟨((h c).1 4).trans (final m c),
      ((h c).2 main_arg0 (Pipeline.mem_restRefs_of main_arg0 (by decide) (by decide))).trans (V_main_arg0 m c)⟩)
    (run_main m ρ)

end Cert.Adjacency.KernelRun

end
-- ==== Proof.LibScatterSet.lean ====
/-
  A scatter whose body returns the update ("set"), read at one index of the result.

  `Host.scatter d f x idx upd` is the left fold, over the update indices in row-major order, of point writes: update
  index `j` replaces the element at `d.resultIdx? j idx` (when that is an index of the operand) by `f` of the old
  element and `upd j`. With `f = fun _ b => b` each write stores the update itself. Hence, at a result index `i`:
    * if no update index lands at `i`, the result there is the operand's element (`scatter_set_of_miss`);
    * if exactly one update index `j0` lands at `i`, the result there is `upd j0` (`scatter_set_of_unique_hit`).
  Both follow from the same two statements about a left fold of point writes over an arbitrary list
  (`foldl_write_of_miss`, `foldl_write_of_unique_hit`), proved by induction on the list.
  This file is general: it depends on no particular program and may be reused wherever a "set" scatter is read.
-/
import Idealize.ShloMosaic.PureOps.ShapeOps

namespace Cert.ScatterSet

open Idealize.ShloMosaic

section Fold
variable {α β ι : Type}

/-- A left fold of steps none of which changes the element at `i` leaves that element as it was: `g` is the step,
    `tgt n` the index step `n` writes (if any); the hypothesis `hmiss` says a step that does not write `i` keeps
    the element at `i`. -/
theorem foldl_write_of_miss (g : (ι → α) → β → (ι → α)) (tgt : β → Option ι) (i : ι)
    (hmiss : ∀ r n, tgt n ≠ some i → g r n i = r i) :
    ∀ (l : List β) (r : ι → α), (∀ n ∈ l, tgt n ≠ some i) → l.foldl g r i = r i := by
  intro l
  induction l with
  | nil => intro r _; rfl
  | cons a t ih =>
    intro r h
    rw [List.foldl_cons, ih (g r a) (fun n hn => h n (List.mem_cons_of_mem _ hn))]
    exact hmiss r a (h a List.mem_cons_self)

/-- A left fold of point writes over a list without repeats in which exactly one step, `n0`, writes the element at
    `i`, leaves there the value that step writes, `val n0`: a step that does not write `i` keeps the element
    (`hmiss`), a step that writes `i` stores its own value whatever was there (`hhit`). -/
theorem foldl_write_of_unique_hit (g : (ι → α) → β → (ι → α)) (tgt : β → Option ι) (val : β → α) (i : ι)
    (hmiss : ∀ r n, tgt n ≠ some i → g r n i = r i)
    (hhit : ∀ r n, tgt n = some i → g r n i = val n) (n0 : β) (h0 : tgt n0 = some i) :
    ∀ (l : List β) (r : ι → α), l.Nodup → n0 ∈ l → (∀ n ∈ l, tgt n = some i → n = n0) → l.foldl g r i = val n0 := by
  intro l
  induction l with
  | nil => intro r _ hmem; exact absurd hmem List.not_mem_nil
  | cons a t ih =>
    intro r hnd hmem huniq
    rw [List.foldl_cons]
    rcases List.mem_cons.1 hmem with rfl | hmem'
    · -- the head is the one writing step: no later step writes `i`
      have hnot : n0 ∉ t := (List.nodup_cons.1 hnd).1
      rw [foldl_write_of_miss g tgt i hmiss t (g r n0) (fun n hn hsome =>
        hnot (huniq n (List.mem_cons_of_mem _ hn) hsome ▸ hn))]
      exact hhit r n0 h0
    · exact ih (g r a) (List.nodup_cons.1 hnd).2 hmem' (fun n hn => huniq n (List.mem_cons_of_mem _ hn))

end Fold

section Scatter
variable {s si u : Shape} {α : Type} {w : Nat}

/-- One step of a "set" scatter at an index it does not write keeps the element. -/
private theorem step_of_miss (d : ScatterDims s si u) (idx : IVec si w) (upd : u.Idx → α) (i : s.Idx)
    (r : s.Idx → α) (n : Fin u.numel) (h : d.resultIdx? (u.rowMajor.symm n) idx ≠ some i) :
    (match d.resultIdx? (u.rowMajor.symm n) idx with
      | some i1 => fun i' => if i' = i1 then (fun _ b => b) (r i1) (upd (u.rowMajor.symm n)) else r i'
      | none => r) i = r i := by
  cases hc : d.resultIdx? (u.rowMajor.symm n) idx with
  | none => rfl
  | some i1 =>
    have hne : i ≠ i1 := fun e => h (by rw [hc, e])
    simp only [if_neg hne]

/-- One step of a "set" scatter at the index it writes stores the update. -/
private theorem step_of_hit (d : ScatterDims s si u) (idx : IVec si w) (upd : u.Idx → α) (i : s.Idx)
    (r : s.Idx → α) (n : Fin u.numel) (h : d.resultIdx? (u.rowMajor.symm n) idx = some i) :
    (match d.resultIdx? (u.rowMajor.symm n) idx with
      | some i1 => fun i' => if i' = i1 then (fun _ b => b) (r i1) (upd (u.rowMajor.symm n)) else r i'
      | none => r) i = upd (u.rowMajor.symm n) := by
  rw [h]
  simp only [if_true]

/-- A "set" scatter at a result index no update lands at: the operand's element. -/
theorem scatter_set_of_miss (d : ScatterDims s si u) (x : s.Idx → α) (idx : IVec si w) (upd : u.Idx → α) (i : s.Idx)
    (h : ∀ j, d.resultIdx? j idx ≠ some i) :
    Host.scatter d (fun _ b => b) x idx upd i = x i := by
  unfold Host.scatter
  exact foldl_write_of_miss _ (fun n => d.resultIdx? (u.rowMajor.symm n) idx) i
    (fun r n hn => step_of_miss d idx upd i r n hn) _ x (fun n _ => h _)

/-- A "set" scatter at a result index exactly one update index `j0` lands at: that update. -/
theorem scatter_set_of_unique_hit (d : ScatterDims s si u) (x : s.Idx → α) (idx : IVec si w) (upd : u.Idx → α)
    (i : s.Idx) (j0 : u.Idx) (h0 : d.resultIdx? j0 idx = some i)
    (huniq : ∀ j, d.resultIdx? j idx = some i → j = j0) :
    Host.scatter d (fun _ b => b) x idx upd i = upd j0 := by
  unfold Host.scatter
  have key := foldl_write_of_unique_hit _ (fun n => d.resultIdx? (u.rowMajor.symm n) idx)
    (fun n => upd (u.rowMajor.symm n)) i
    (fun r n hn => step_of_miss d idx upd i r n hn) (fun r n hn => step_of_hit d idx upd i r n hn)
    (u.rowMajor j0) (by simpa using h0) (List.finRange u.numel) x (List.nodup_finRange _) (List.mem_finRange _)
    (fun n _ hn => by
      have := huniq _ hn
      rw [← this, Equiv.apply_symm_apply])
  have e : upd (u.rowMajor.symm (u.rowMajor j0)) = upd j0 := by rw [Equiv.symm_apply_apply]
  rw [← e]
  exact key

end Scatter

end Cert.ScatterSet
-- ==== Proof.LibScatterPoint.lean ====
/-
  Where a batched point scatter writes: the dimension numbers of `A.at[:, rows, cols].set(vals)` read off.

  The operand is `[B, N, M]`, the scatter indices are `[K, 2]` (index vector on axis 1: row and column of point `k`),
  the updates are `[B, K]`; the update window axis is 0 (the batch), the operand's axes 1 and 2 are inserted, and the
  two index components go to operand axes 1 and 2. Update index `(b, k)` therefore lands at
  `(b, idx(k,0), idx(k,1))`, the two index words read as signed integers, and is dropped when that leaves the operand
  (`resultIdx?_eq_some_iff`). General in the four extents; depends on no particular program.
-/
import Idealize.ShloMosaic.PureOps.ShapeOps
import Idealize.ShloMosaic.Lib.ValueIdx

namespace Cert.ScatterPoint

open Idealize.ShloMosaic Idealize.ShloMosaic.ValueIdx

variable {B N M K w : Nat}

/-- The dimension numbers of a batched point scatter: update window axis 0, inserted operand axes 1 and 2, the two
    components of an index vector (axis 1 of the indices) going to operand axes 1 and 2. -/
abbrev dims (B N M K : Nat)
    (wf : ScatterDims.WF ⟨3, ![B, N, M]⟩ ⟨2, ![K, 2]⟩ ⟨2, ![B, K]⟩ [0] [1, 2] [1, 2] 1) :
    ScatterDims ⟨3, ![B, N, M]⟩ ⟨2, ![K, 2]⟩ ⟨2, ![B, K]⟩ where
  updateWindowDims := [0]
  insertedWindowDims := [1, 2]
  scatterDimsToOperandDims := [1, 2]
  indexVectorDim := 1
  wf := wf

variable (wf : ScatterDims.WF ⟨3, ![B, N, M]⟩ ⟨2, ![K, 2]⟩ ⟨2, ![B, K]⟩ [0] [1, 2] [1, 2] 1)

/-- On the batch axis the window starts at 0 … -/
theorem start_zero (j : (⟨2, ![B, K]⟩ : Shape).Idx) (idx : IVec ⟨2, ![K, 2]⟩ w) :
    (dims B N M K wf).start j idx 0 = 0 := by
  unfold ScatterDims.start
  have h : (0 : Fin 3) ∉ (dims B N M K wf).scatterDimsToOperandDims := by
    show (0 : Fin 3) ∉ ([1, 2] : List (Fin 3)); decide
  rw [dif_neg h]

/-- … on the row axis at the first component of point `k`'s index vector, read signed … -/
theorem start_one (j : (⟨2, ![B, K]⟩ : Shape).Idx) (idx : IVec ⟨2, ![K, 2]⟩ w) :
    (dims B N M K wf).start j idx 1 = (idx (ix2 (j 1) 0)).toInt := by
  unfold ScatterDims.start
  have h : (1 : Fin 3) ∈ (dims B N M K wf).scatterDimsToOperandDims := by
    show (1 : Fin 3) ∈ ([1, 2] : List (Fin 3)); decide
  rw [dif_pos h]
  congr 2
  funext b; refine Fin.ext ?_
  match b with
  | ⟨0, _⟩ => rfl
  | ⟨1, _⟩ => rfl

/-- … and on the column axis at its second component. -/
theorem start_two (j : (⟨2, ![B, K]⟩ : Shape).Idx) (idx : IVec ⟨2, ![K, 2]⟩ w) :
    (dims B N M K wf).start j idx 2 = (idx (ix2 (j 1) 1)).toInt := by
  unfold ScatterDims.start
  have h : (2 : Fin 3) ∈ (dims B N M K wf).scatterDimsToOperandDims := by
    show (2 : Fin 3) ∈ ([1, 2] : List (Fin 3)); decide
  rw [dif_pos h]
  congr 2
  funext b; refine Fin.ext ?_
  match b with
  | ⟨0, _⟩ => rfl
  | ⟨1, _⟩ => rfl

/-- The window coordinate is the update's batch coordinate on the batch axis … -/
theorem window_zero (j : (⟨2, ![B, K]⟩ : Shape).Idx) : (dims B N M K wf).window j 0 = (j 0).val := by
  unfold ScatterDims.window
  have h : (0 : Fin 3) ∈ (dims B N M K wf).sKept := by
    show (0 : Fin 3) ∈ (List.finRange 3).filter (fun x => x ∉ ([1, 2] : List (Fin 3))); decide
  rw [dif_pos h]
  rfl

/-- … and 0 on the two inserted axes. -/
theorem window_one (j : (⟨2, ![B, K]⟩ : Shape).Idx) : (dims B N M K wf).window j 1 = 0 := by
  unfold ScatterDims.window
  have h : (1 : Fin 3) ∉ (dims B N M K wf).sKept := by
    show (1 : Fin 3) ∉ (List.finRange 3).filter (fun x => x ∉ ([1, 2] : List (Fin 3))); decide
  rw [dif_neg h]

theorem window_two (j : (⟨2, ![B, K]⟩ : Shape).Idx) : (dims B N M K wf).window j 2 = 0 := by
  unfold ScatterDims.window
  have h : (2 : Fin 3) ∉ (dims B N M K wf).sKept := by
    show (2 : Fin 3) ∉ (List.finRange 3).filter (fun x => x ∉ ([1, 2] : List (Fin 3))); decide
  rw [dif_neg h]

/-- WHERE UPDATE `(b, k)` LANDS: at `(b', r, c)` exactly when `b' = b` and point `k`'s index vector, read as signed
    integers, is `(r, c)`. -/
theorem resultIdx?_eq_some_iff (idx : IVec ⟨2, ![K, 2]⟩ w) (b : Fin B) (k : Fin K) (b' : Fin B) (r : Fin N) (c : Fin M) :
    (dims B N M K wf).resultIdx? (ix2 b k) idx = some (ix3 b' r c)
      ↔ b' = b ∧ (idx (ix2 k 0)).toInt = (r.val : Int) ∧ (idx (ix2 k 1)).toInt = (c.val : Int) := by
  have s0 := start_zero wf (ix2 b k) idx
  have s1 := start_one wf (ix2 b k) idx
  have s2 := start_two wf (ix2 b k) idx
  have w0 := window_zero wf (ix2 b k)
  have w1 := window_one wf (ix2 b k)
  have w2 := window_two wf (ix2 b k)
  have e1 : (ix2 b k : (⟨2, ![B, K]⟩ : Shape).Idx) 1 = k := rfl
  have e0 : (ix2 b k : (⟨2, ![B, K]⟩ : Shape).Idx) 0 = b := rfl
  rw [e1] at s1 s2
  rw [e0] at w0
  unfold ScatterDims.resultIdx?
  constructor
  · intro h
    split at h
    · next hin =>
      have hf := Option.some.inj h
      have h0 := congrArg Fin.val (congrFun hf 0)
      have h1 := congrArg Fin.val (congrFun hf 1)
      have h2 := congrArg Fin.val (congrFun hf 2)
      have i1 := hin 1
      have i2 := hin 2
      simp only [s0, s1, s2, w0, w1, w2] at h0 h1 h2 i1 i2
      have hb : (ix3 b' r c : (⟨3, ![B, N, M]⟩ : Shape).Idx) 0 = b' := rfl
      have hr : (ix3 b' r c : (⟨3, ![B, N, M]⟩ : Shape).Idx) 1 = r := rfl
      have hc : (ix3 b' r c : (⟨3, ![B, N, M]⟩ : Shape).Idx) 2 = c := rfl
      rw [hb] at h0; rw [hr] at h1; rw [hc] at h2
      refine ⟨Fin.ext (by omega), by omega, by omega⟩
    · exact absurd h (by simp)
  · rintro ⟨rfl, hr, hc⟩
    have hin : ∀ a, 0 ≤ (dims B N M K wf).start (ix2 b' k) idx a + (dims B N M K wf).window (ix2 b' k) a ∧
        (dims B N M K wf).start (ix2 b' k) idx a + (dims B N M K wf).window (ix2 b' k) a
          < (⟨3, ![B, N, M]⟩ : Shape).size a := by
      intro a
      match a with
      | ⟨0, _⟩ =>
        show 0 ≤ (dims B N M K wf).start (ix2 b' k) idx 0 + (dims B N M K wf).window (ix2 b' k) 0 ∧
          (dims B N M K wf).start (ix2 b' k) idx 0 + (dims B N M K wf).window (ix2 b' k) 0 < (B : Int)
        rw [s0, w0]; have := b'.isLt; omega
      | ⟨1, _⟩ =>
        show 0 ≤ (dims B N M K wf).start (ix2 b' k) idx 1 + (dims B N M K wf).window (ix2 b' k) 1 ∧
          (dims B N M K wf).start (ix2 b' k) idx 1 + (dims B N M K wf).window (ix2 b' k) 1 < (N : Int)
        rw [s1, w1]; have := r.isLt; omega
      | ⟨2, _⟩ =>
        show 0 ≤ (dims B N M K wf).start (ix2 b' k) idx 2 + (dims B N M K wf).window (ix2 b' k) 2 ∧
          (dims B N M K wf).start (ix2 b' k) idx 2 + (dims B N M K wf).window (ix2 b' k) 2 < (M : Int)
        rw [s2, w2]; have := c.isLt; omega
    rw [dif_pos hin]
    congr 1
    funext a
    refine Fin.ext ?_
    match a with
    | ⟨0, _⟩ =>
      show ((dims B N M K wf).start (ix2 b' k) idx 0 + (dims B N M K wf).window (ix2 b' k) 0).toNat = b'.val
      rw [s0, w0]; omega
    | ⟨1, _⟩ =>
      show ((dims B N M K wf).start (ix2 b' k) idx 1 + (dims B N M K wf).window (ix2 b' k) 1).toNat = r.val
      rw [s1, w1]; omega
    | ⟨2, _⟩ =>
      show ((dims B N M K wf).start (ix2 b' k) idx 2 + (dims B N M K wf).window (ix2 b' k) 2).toNat = c.val
      rw [s2, w2]; omega

end Cert.ScatterPoint
-- ==== Proof.LibScatterPointSet.lean ====
/-
  A batched point "set" scatter `A.at[:, rows, cols].set(vals)` read at one element.

  The operand is `[B, N, M]`, point `k` of the `[K, 2]` index array is `(row k, col k)` (words read signed), the
  updates are `[B, K]`. At the element `(b, r, c)` of the result:
    * if some point `k` is `(r, c)` and no other point is, the result is the update `(b, k)` (`scatter_point_of_hit`);
    * if no point is `(r, c)`, the result is the operand's element (`scatter_point_of_miss`).
  General in the four extents; depends on no particular program.
-/
import proofs.«100916_j78520592106142_2_alg».proof.Proof.LibScatterSet
import proofs.«100916_j78520592106142_2_alg».proof.Proof.LibScatterPoint

namespace Cert.ScatterPoint

open Idealize.ShloMosaic Idealize.ShloMosaic.ValueIdx

variable {B N M K w : Nat} {α : Type}
variable (wf : ScatterDims.WF ⟨3, ![B, N, M]⟩ ⟨2, ![K, 2]⟩ ⟨2, ![B, K]⟩ [0] [1, 2] [1, 2] 1)

/-- The element `(b, r, c)` when exactly one point, `k`, is `(r, c)`: the update `(b, k)`. -/
theorem scatter_point_of_hit (x : (⟨3, ![B, N, M]⟩ : Shape).Idx → α) (idx : IVec ⟨2, ![K, 2]⟩ w)
    (upd : (⟨2, ![B, K]⟩ : Shape).Idx → α) (b : Fin B) (r : Fin N) (c : Fin M) (k : Fin K)
    (hr : (idx (ix2 k 0)).toInt = (r.val : Int)) (hc : (idx (ix2 k 1)).toInt = (c.val : Int))
    (huniq : ∀ k' : Fin K, (idx (ix2 k' 0)).toInt = (r.val : Int) → (idx (ix2 k' 1)).toInt = (c.val : Int) → k' = k) :
    Host.scatter (dims B N M K wf) (fun _ v => v) x idx upd (ix3 b r c) = upd (ix2 b k) := by
  refine Cert.ScatterSet.scatter_set_of_unique_hit (dims B N M K wf) x idx upd (ix3 b r c) (ix2 b k)
    ((resultIdx?_eq_some_iff wf idx b k b r c).2 ⟨rfl, hr, hc⟩) ?_
  intro j hj
  rw [eq_ix2 j] at hj ⊢
  obtain ⟨hb, hr', hc'⟩ := (resultIdx?_eq_some_iff wf idx (j 0) (j 1) b r c).1 hj
  rw [← hb, huniq (j 1) hr' hc']
  rfl

/-- The element `(b, r, c)` when no point is `(r, c)`: the operand's. -/
theorem scatter_point_of_miss (x : (⟨3, ![B, N, M]⟩ : Shape).Idx → α) (idx : IVec ⟨2, ![K, 2]⟩ w)
    (upd : (⟨2, ![B, K]⟩ : Shape).Idx → α) (b : Fin B) (r : Fin N) (c : Fin M)
    (hmiss : ∀ k : Fin K, ¬((idx (ix2 k 0)).toInt = (r.val : Int) ∧ (idx (ix2 k 1)).toInt = (c.val : Int))) :
    Host.scatter (dims B N M K wf) (fun _ v => v) x idx upd (ix3 b r c) = x (ix3 b r c) := by
  refine Cert.ScatterSet.scatter_set_of_miss (dims B N M K wf) x idx upd (ix3 b r c) ?_
  intro j hj
  rw [eq_ix2 j] at hj
  obtain ⟨_, hr', hc'⟩ := (resultIdx?_eq_some_iff wf idx (j 0) (j 1) b r c).1 hj
  exact hmiss (j 1) ⟨hr', hc'⟩

end Cert.ScatterPoint
-- ==== Proof.RefIndices.lean ====
/-
  The four index arrays of the reference's scatters, in closed form.

  The grid's node numbers are the words `node(y, x) = 64 y + x` (an iota down the rows times 64 plus an iota along the
  columns). Each scatter's index array pairs two flattened slices of that grid, after a wrap-around
  `select (n < 0) (n + 4096) n` that is never taken because every node number is non-negative:
    * vertical edges, lower node to upper node: point `k` is `(k + 64, k)`; upper to lower: `(k, k + 64)`;
    * horizontal edges, left node to right node: point `k` is `(l, l + 1)` with `l = 64 (k / 63) + k % 63`; right to left:
      `(l + 1, l)`.
  All statements hold for every float instance: only integer words are involved.
-/
import proofs.«100916_j78520592106142_2_alg».proof.Proof.Gen.ReferenceIdeal.Read
import Idealize.ShloMosaic.Lib.ValueIdx

namespace Cert.Adjacency.Ref

open Cert.ReferenceIdeal Cert.ReferenceIdeal.Gen Cert.ReferenceIdeal.Read Idealize.ShloMosaic Idealize.ShloMosaic.ValueIdx

/-! ## Words -/

/-- A number below 2^31, as a 32-bit word, reads as itself when the word is read signed. -/
theorem toInt_ofNat_small (n : Nat) (hn : n < 2147483648) : (BitVec.ofNat 32 n).toInt = (n : Int) := by
  rw [BitVec.toInt_eq_toNat_cond, BitVec.toNat_ofNat]
  have : n % 2 ^ 32 = n := Nat.mod_eq_of_lt (by omega)
  rw [this, if_pos (by omega)]

/-- The wrap-around of a negative index, `select (n < 0) (n + N) n`, leaves a number below 2^31 alone. -/
theorem wrap_ofNat (n : Nat) (hn : n < 2147483648) (N : BitVec 32) :
    Scalar.select (IntOp.cmpi .slt (BitVec.ofNat 32 n) 0#32) (IntOp.addi (BitVec.ofNat 32 n) N) (BitVec.ofNat 32 n)
      = BitVec.ofNat 32 n := by
  have h : IntOp.cmpi .slt (BitVec.ofNat 32 n) 0#32 = 0#1 := by
    unfold IntOp.cmpi
    have hs : (BitVec.ofNat 32 n).slt 0#32 = false := by
      unfold BitVec.slt
      rw [toInt_ofNat_small n hn]
      simp
    simp only [hs]
    rfl
  rw [h, select_zero]

/-- `y * 64 + x` on 32-bit words, for a row and a column below 64, is the word of the number `64 y + x`. -/
theorem node_word (y x : Nat) (hy : y < 64) (hx : x < 64) :
    IntOp.addi (IntOp.muli (BitVec.ofNat 32 y) 64#32) (BitVec.ofNat 32 x) = BitVec.ofNat 32 (64 * y + x) := by
  unfold IntOp.addi IntOp.muli
  apply BitVec.eq_of_toNat_eq
  simp only [BitVec.toNat_add, BitVec.toNat_mul, BitVec.toNat_ofNat]
  omega

variable {F : FTy → Type} [FloatOps F]

/-! ## The grid of node numbers and its four flattened slices -/

/-- The node number at row `y`, column `x` of the grid is `64 y + x`. -/
theorem node_apply (i : S64x64.Idx) :
    val_main_v20 (F := F) i = BitVec.ofNat 32 (64 * (i 0).val + (i 1).val) := by
  rw [val_main_v20_apply, val_main_v18_apply, val_main_v19_apply, val_main_v15_apply, val_main_v13_apply,
    val_main_v14_apply, val_main_c_apply, val_main_v17_apply, val_main_v12_apply, val_main_v16_apply]
  exact node_word (i 0).val (i 1).val (i 0).isLt (i 1).isLt

/-- Rows 1 to 63 of the grid, flattened: entry `k` is node `k + 64` (the lower node of vertical edge `k`). -/
theorem lower_apply (i : S4032.Idx) : val_main_v23 (F := F) i = BitVec.ofNat 32 ((i 0).val + 64) := by
  rw [val_main_v23_apply, val_main_v22_apply, node_apply]
  congr 1
  show 64 * (1 + (i 0).val / 64) + (i 0).val % 64 = (i 0).val + 64
  omega

/-- Rows 0 to 62 of the grid, flattened: entry `k` is node `k` (the upper node of vertical edge `k`). -/
theorem upper_apply (i : S4032.Idx) : val_main_v25 (F := F) i = BitVec.ofNat 32 (i 0).val := by
  rw [val_main_v25_apply, val_main_v24_apply, node_apply]
  congr 1
  show 64 * ((i 0).val / 64) + (i 0).val % 64 = (i 0).val
  omega

/-- Columns 0 to 62 of the grid, flattened: entry `k` is node `64 (k / 63) + k % 63` (the left node of horizontal
    edge `k`). -/
theorem left_apply (i : S4032.Idx) :
    val_main_v56 (F := F) i = BitVec.ofNat 32 (64 * ((i 0).val / 63) + (i 0).val % 63) := by
  rw [val_main_v56_apply, val_main_v55_apply, node_apply]

/-- Columns 1 to 63 of the grid, flattened: entry `k` is node `64 (k / 63) + k % 63 + 1` (the right node of
    horizontal edge `k`). -/
theorem right_apply (i : S4032.Idx) :
    val_main_v58 (F := F) i = BitVec.ofNat 32 (64 * ((i 0).val / 63) + (i 0).val % 63 + 1) := by
  rw [val_main_v58_apply, val_main_v57_apply, node_apply]
  congr 1
  show 64 * ((i 0).val / 63) + (1 + (i 0).val % 63) = 64 * ((i 0).val / 63) + (i 0).val % 63 + 1
  omega

/-! ## The wrap-around leaves every slice as it is -/

theorem v31_apply (i : S4032.Idx) : val_main_v31 (F := F) i = BitVec.ofNat 32 ((i 0).val + 64) := by
  rw [val_main_v31_apply, val_main_v28_apply, val_main_v30_apply, lower_apply]
  exact wrap_ofNat _ (by have : (i 0).val < 4032 := (i 0).isLt; omega) _

theorem v36_apply (i : S4032.Idx) : val_main_v36 (F := F) i = BitVec.ofNat 32 (i 0).val := by
  rw [val_main_v36_apply, val_main_v33_apply, val_main_v35_apply, upper_apply]
  exact wrap_ofNat _ (by have : (i 0).val < 4032 := (i 0).isLt; omega) _

theorem v45_apply (i : S4032.Idx) : val_main_v45 (F := F) i = BitVec.ofNat 32 (i 0).val := by
  rw [val_main_v45_apply, val_main_v42_apply, val_main_v44_apply, upper_apply]
  exact wrap_ofNat _ (by have : (i 0).val < 4032 := (i 0).isLt; omega) _

theorem v50_apply (i : S4032.Idx) : val_main_v50 (F := F) i = BitVec.ofNat 32 ((i 0).val + 64) := by
  rw [val_main_v50_apply, val_main_v47_apply, val_main_v49_apply, lower_apply]
  exact wrap_ofNat _ (by have : (i 0).val < 4032 := (i 0).isLt; omega) _

theorem v64_apply (i : S4032.Idx) :
    val_main_v64 (F := F) i = BitVec.ofNat 32 (64 * ((i 0).val / 63) + (i 0).val % 63) := by
  rw [val_main_v64_apply, val_main_v61_apply, val_main_v63_apply, left_apply]
  exact wrap_ofNat _ (by have : (i 0).val < 4032 := (i 0).isLt; omega) _

theorem v69_apply (i : S4032.Idx) :
    val_main_v69 (F := F) i = BitVec.ofNat 32 (64 * ((i 0).val / 63) + (i 0).val % 63 + 1) := by
  rw [val_main_v69_apply, val_main_v66_apply, val_main_v68_apply, right_apply]
  exact wrap_ofNat _ (by have : (i 0).val < 4032 := (i 0).isLt; omega) _

theorem v78_apply (i : S4032.Idx) :
    val_main_v78 (F := F) i = BitVec.ofNat 32 (64 * ((i 0).val / 63) + (i 0).val % 63 + 1) := by
  rw [val_main_v78_apply, val_main_v75_apply, val_main_v77_apply, right_apply]
  exact wrap_ofNat _ (by have : (i 0).val < 4032 := (i 0).isLt; omega) _

theorem v83_apply (i : S4032.Idx) :
    val_main_v83 (F := F) i = BitVec.ofNat 32 (64 * ((i 0).val / 63) + (i 0).val % 63) := by
  rw [val_main_v83_apply, val_main_v80_apply, val_main_v82_apply, left_apply]
  exact wrap_ofNat _ (by have : (i 0).val < 4032 := (i 0).isLt; omega) _

/-! ## The index arrays: two columns side by side -/

/-- Two `[4032, 1]` columns side by side, read in the first column. -/
theorem pair_fst (x₁ x₂ : S4032x1.Idx → BitVec 32) (k : Fin 4032) :
    concatenate S4032x2 1 [⟨S4032x1, x₁⟩, ⟨S4032x1, x₂⟩] concatenates_S4032x1_S4032x1_S4032x2_d1
        (ix2 k (0 : Fin 2)) = x₁ (ix2 k (0 : Fin 1)) :=
  concatenate_pair_apply_left 1 x₁ x₂ concatenates_S4032x1_S4032x1_S4032x2_d1 (ix2 k (0 : Fin 2)) rfl
    (ix2 k (0 : Fin 1)) (fun b => match b with | ⟨0, _⟩ => rfl | ⟨1, _⟩ => rfl)

/-- Two `[4032, 1]` columns side by side, read in the second column. -/
theorem pair_snd (x₁ x₂ : S4032x1.Idx → BitVec 32) (k : Fin 4032) :
    concatenate S4032x2 1 [⟨S4032x1, x₁⟩, ⟨S4032x1, x₂⟩] concatenates_S4032x1_S4032x1_S4032x2_d1
        (ix2 k (1 : Fin 2)) = x₂ (ix2 k (0 : Fin 1)) :=
  concatenate_pair_apply_right 1 x₁ x₂ concatenates_S4032x1_S4032x1_S4032x2_d1 (ix2 k (1 : Fin 2)) rfl rfl
    (ix2 k (0 : Fin 1)) (fun b => match b with
      | ⟨0, _⟩ => fun _ => rfl
      | ⟨1, _⟩ => fun h => absurd (Fin.ext rfl) h) rfl

/-- Vertical edges, lower to upper: point `k` is row `k + 64` … -/
theorem v39_row (k : Fin 4032) : val_main_v39 (F := F) (ix2 k 0) = BitVec.ofNat 32 (k.val + 64) := by
  unfold val_main_v39
  rw [pair_fst, val_main_v37_apply, v31_apply]
/-- … column `k`. -/
theorem v39_col (k : Fin 4032) : val_main_v39 (F := F) (ix2 k 1) = BitVec.ofNat 32 k.val := by
  unfold val_main_v39
  rw [pair_snd, val_main_v38_apply, v36_apply]

/-- Vertical edges, upper to lower: point `k` is row `k` … -/
theorem v53_row (k : Fin 4032) : val_main_v53 (F := F) (ix2 k 0) = BitVec.ofNat 32 k.val := by
  unfold val_main_v53
  rw [pair_fst, val_main_v51_apply, v45_apply]
/-- … column `k + 64`. -/
theorem v53_col (k : Fin 4032) : val_main_v53 (F := F) (ix2 k 1) = BitVec.ofNat 32 (k.val + 64) := by
  unfold val_main_v53
  rw [pair_snd, val_main_v52_apply, v50_apply]

/-- Horizontal edges, left to right: point `k` is row `64 (k / 63) + k % 63` … -/
theorem v72_row (k : Fin 4032) :
    val_main_v72 (F := F) (ix2 k 0) = BitVec.ofNat 32 (64 * (k.val / 63) + k.val % 63) := by
  unfold val_main_v72
  rw [pair_fst, val_main_v70_apply, v64_apply]
/-- … column one more. -/
theorem v72_col (k : Fin 4032) :
    val_main_v72 (F := F) (ix2 k 1) = BitVec.ofNat 32 (64 * (k.val / 63) + k.val % 63 + 1) := by
  unfold val_main_v72
  rw [pair_snd, val_main_v71_apply, v69_apply]

/-- Horizontal edges, right to left: point `k` is row `64 (k / 63) + k % 63 + 1` … -/
theorem v86_row (k : Fin 4032) :
    val_main_v86 (F := F) (ix2 k 0) = BitVec.ofNat 32 (64 * (k.val / 63) + k.val % 63 + 1) := by
  unfold val_main_v86
  rw [pair_fst, val_main_v84_apply, v78_apply]
/-- … column one less. -/
theorem v86_col (k : Fin 4032) :
    val_main_v86 (F := F) (ix2 k 1) = BitVec.ofNat 32 (64 * (k.val / 63) + k.val % 63) := by
  unfold val_main_v86
  rw [pair_snd, val_main_v85_apply, v83_apply]

/-! ## The same points as signed integers, the way a scatter reads them -/

theorem v39_row_int (k : Fin 4032) : (val_main_v39 (F := F) (ix2 k 0)).toInt = ((k.val + 64 : Nat) : Int) := by
  rw [v39_row]; exact toInt_ofNat_small _ (by have := k.isLt; omega)
theorem v39_col_int (k : Fin 4032) : (val_main_v39 (F := F) (ix2 k 1)).toInt = (k.val : Int) := by
  rw [v39_col]; exact toInt_ofNat_small _ (by have := k.isLt; omega)
theorem v53_row_int (k : Fin 4032) : (val_main_v53 (F := F) (ix2 k 0)).toInt = (k.val : Int) := by
  rw [v53_row]; exact toInt_ofNat_small _ (by have := k.isLt; omega)
theorem v53_col_int (k : Fin 4032) : (val_main_v53 (F := F) (ix2 k 1)).toInt = ((k.val + 64 : Nat) : Int) := by
  rw [v53_col]; exact toInt_ofNat_small _ (by have := k.isLt; omega)
theorem v72_row_int (k : Fin 4032) :
    (val_main_v72 (F := F) (ix2 k 0)).toInt = ((64 * (k.val / 63) + k.val % 63 : Nat) : Int) := by
  rw [v72_row]; exact toInt_ofNat_small _ (by have := k.isLt; omega)
theorem v72_col_int (k : Fin 4032) :
    (val_main_v72 (F := F) (ix2 k 1)).toInt = ((64 * (k.val / 63) + k.val % 63 + 1 : Nat) : Int) := by
  rw [v72_col]; exact toInt_ofNat_small _ (by have := k.isLt; omega)
theorem v86_row_int (k : Fin 4032) :
    (val_main_v86 (F := F) (ix2 k 0)).toInt = ((64 * (k.val / 63) + k.val % 63 + 1 : Nat) : Int) := by
  rw [v86_row]; exact toInt_ofNat_small _ (by have := k.isLt; omega)
theorem v86_col_int (k : Fin 4032) :
    (val_main_v86 (F := F) (ix2 k 1)).toInt = ((64 * (k.val / 63) + k.val % 63 : Nat) : Int) := by
  rw [v86_col]; exact toInt_ofNat_small _ (by have := k.isLt; omega)

end Cert.Adjacency.Ref
-- ==== Proof.RefValue.lean ====
/-
  The reference's matrix is the banded adjacency matrix of the grid.

  The reference starts from zeros and performs four "set" scatters of points: the vertical weights at `(k + 64, k)` and
  at `(k, k + 64)`, then the horizontal weights at `(l, l + 1)` and at `(l + 1, l)`, `l = 64 (k / 63) + k % 63` the left
  node of horizontal edge `k`. Each scatter's points are pairwise different, and the four scatters write the four
  different diagonals `r - c = 64, -64, -1, 1`; so every element of the result is written at most once, by the one
  edge that joins its row node and column node, and is zero otherwise. Read at `(b, r, c)` this is `adjAt`.
-/
import proofs.«100916_j78520592106142_2_alg».proof.Proof.Gen.ReferenceIdeal.Read
import Idealize.ShloMosaic.PureOps.Ideal.Laws
import proofs.«100916_j78520592106142_2_alg».proof.Proof.Spec
import proofs.«100916_j78520592106142_2_alg».proof.Proof.LibScatterPointSet
import proofs.«100916_j78520592106142_2_alg».proof.Proof.RefIndices

namespace Cert.Adjacency.Ref

open Cert.ReferenceIdeal Cert.ReferenceIdeal.Gen Cert.ReferenceIdeal.Read Idealize.ShloMosaic Idealize.ShloMosaic.ValueIdx Cert.ScatterPoint

/-- The program's scatter dimension numbers are the batched point scatter's. -/
theorem dims_eq :
    scatter_S4x4096x4096_S4032x2_S4x4032_0_12_12_1
      = dims 4 4096 4096 4032 Cert.ReferenceIdeal.Gen.scatter_S4x4096x4096_S4032x2_S4x4032_0_12_12_1_wf := rfl

/-! ## The updates: the weight arrays, flattened -/

/-- Entry `(b, k)` of the flattened vertical weights is the vertical weight carried by node `k`. -/
theorem v26_flat (x0 : (⟨S4x3x1024x1024, .f32⟩ : BufTy).Contents (Elt Ideal)) (b : Fin 4) (k : Fin 4032) :
    val_main_v26 (F := Ideal) x0 (ix2 b k) = dvNode (val_main_v6 (F := Ideal) x0) b k.val := by
  rw [val_main_v26_apply]
  unfold dvNode
  rw [dif_pos k.isLt]
  congr 1
  funext a; refine Fin.ext ?_
  have hb : b.val < 4 := b.isLt
  have hk : k.val < 4032 := k.isLt
  match a with
  | ⟨0, _⟩ => show (b.val * 4032 + k.val) / 4032 = b.val; omega
  | ⟨1, _⟩ => show (b.val * 4032 + k.val) / 64 % 63 = k.val / 64; omega
  | ⟨2, _⟩ => show (b.val * 4032 + k.val) % 64 = k.val % 64; omega

/-- Entry `(b, k)` of the flattened horizontal weights is the horizontal weight carried by the left node of
    horizontal edge `k`, node `64 (k / 63) + k % 63`. -/
theorem v59_flat (x0 : (⟨S4x3x1024x1024, .f32⟩ : BufTy).Contents (Elt Ideal)) (b : Fin 4) (k : Fin 4032) :
    val_main_v59 (F := Ideal) x0 (ix2 b k)
      = dhNode (val_main_v11 (F := Ideal) x0) b (64 * (k.val / 63) + k.val % 63) := by
  have hb : b.val < 4 := b.isLt
  have hk : k.val < 4032 := k.isLt
  rw [val_main_v59_apply]
  unfold dhNode
  rw [dif_pos (show 64 * (k.val / 63) + k.val % 63 < 4096 ∧ (64 * (k.val / 63) + k.val % 63) % 64 < 63 by omega)]
  congr 1
  funext a; refine Fin.ext ?_
  match a with
  | ⟨0, _⟩ => show (b.val * 4032 + k.val) / 4032 = b.val; omega
  | ⟨1, _⟩ => show (b.val * 4032 + k.val) / 63 % 64 = (64 * (k.val / 63) + k.val % 63) / 64; omega
  | ⟨2, _⟩ => show (b.val * 4032 + k.val) % 63 = (64 * (k.val / 63) + k.val % 63) % 64; omega

/-- The matrix the scatters start from is zero. -/
theorem v21_zero (i : S4x4096x4096.Idx) : val_main_v21 (F := Ideal) i = 0 := by
  rw [val_main_v21_apply, val_main_cst_1_apply]
  exact Idealize.ShloMosaic.Ideal.ofBits_zero_f32

/-! ## The four scatters, read at `(b, r, c)` -/

section Reads
variable (x0 : (⟨S4x3x1024x1024, .f32⟩ : BufTy).Contents (Elt Ideal)) (b : Fin 4) (r c : Fin 4096)

/-- After the first scatter: the vertical weight of node `c` on the diagonal `r = c + 64`, zero elsewhere. -/
theorem v40_read :
    val_main_v40 (F := Ideal) x0 (ix3 b r c)
      = if r.val = c.val + 64 then dvNode (val_main_v6 (F := Ideal) x0) b c.val else 0 := by
  have hr : r.val < 4096 := r.isLt
  have hc : c.val < 4096 := c.isLt
  unfold val_main_v40
  rw [dims_eq]
  by_cases h : r.val = c.val + 64
  · rw [if_pos h]
    have hk : c.val < 4032 := by omega
    refine (scatter_point_of_hit _ _ _ _ b r c ⟨c.val, hk⟩ ?_ ?_ ?_).trans (v26_flat x0 b ⟨c.val, hk⟩)
    · rw [v39_row_int (F := Ideal)]
      show ((c.val + 64 : Nat) : Int) = _
      omega
    · rw [v39_col_int (F := Ideal)]
    · intro k' _ h2
      rw [v39_col_int (F := Ideal)] at h2
      exact Fin.ext (by show k'.val = c.val; omega)
  · rw [if_neg h]
    refine (scatter_point_of_miss _ _ _ _ b r c ?_).trans (v21_zero _)
    intro k hk
    rw [v39_row_int (F := Ideal), v39_col_int (F := Ideal)] at hk
    omega

/-- After the second scatter: also the vertical weight of node `r` on the diagonal `c = r + 64`. -/
theorem v54_read :
    val_main_v54 (F := Ideal) x0 (ix3 b r c)
      = if c.val = r.val + 64 then dvNode (val_main_v6 (F := Ideal) x0) b r.val
        else val_main_v40 (F := Ideal) x0 (ix3 b r c) := by
  have hr : r.val < 4096 := r.isLt
  have hc : c.val < 4096 := c.isLt
  unfold val_main_v54
  rw [dims_eq]
  by_cases h : c.val = r.val + 64
  · rw [if_pos h]
    have hk : r.val < 4032 := by omega
    refine (scatter_point_of_hit _ _ _ _ b r c ⟨r.val, hk⟩ ?_ ?_ ?_).trans (v26_flat x0 b ⟨r.val, hk⟩)
    · rw [v53_row_int (F := Ideal)]
    · rw [v53_col_int (F := Ideal)]
      show ((r.val + 64 : Nat) : Int) = _
      omega
    · intro k' h1 _
      rw [v53_row_int (F := Ideal)] at h1
      exact Fin.ext (by show k'.val = r.val; omega)
  · rw [if_neg h]
    refine scatter_point_of_miss _ _ _ _ b r c ?_
    intro k hk
    rw [v53_row_int (F := Ideal), v53_col_int (F := Ideal)] at hk
    omega

/-- After the third scatter: also the horizontal weight of node `r` on the diagonal `c = r + 1`, where `r` is not in
    the last grid column. -/
theorem v73_read :
    val_main_v73 (F := Ideal) x0 (ix3 b r c)
      = if c.val = r.val + 1 ∧ r.val % 64 < 63 then dhNode (val_main_v11 (F := Ideal) x0) b r.val
        else val_main_v54 (F := Ideal) x0 (ix3 b r c) := by
  have hr : r.val < 4096 := r.isLt
  have hc : c.val < 4096 := c.isLt
  unfold val_main_v73
  rw [dims_eq]
  by_cases h : c.val = r.val + 1 ∧ r.val % 64 < 63
  · rw [if_pos h]
    have hk : 63 * (r.val / 64) + r.val % 64 < 4032 := by omega
    have hl : 64 * ((63 * (r.val / 64) + r.val % 64) / 63) + (63 * (r.val / 64) + r.val % 64) % 63 = r.val := by
      omega
    refine (scatter_point_of_hit _ _ _ _ b r c ⟨63 * (r.val / 64) + r.val % 64, hk⟩ ?_ ?_ ?_).trans
      ((v59_flat x0 b ⟨63 * (r.val / 64) + r.val % 64, hk⟩).trans ?_)
    · rw [v72_row_int (F := Ideal)]
      show ((64 * ((63 * (r.val / 64) + r.val % 64) / 63) + (63 * (r.val / 64) + r.val % 64) % 63 : Nat) : Int) = _
      omega
    · rw [v72_col_int (F := Ideal)]
      show ((64 * ((63 * (r.val / 64) + r.val % 64) / 63) + (63 * (r.val / 64) + r.val % 64) % 63 + 1 : Nat) : Int) = _
      omega
    · intro k' h1 _
      rw [v72_row_int (F := Ideal)] at h1
      have := k'.isLt
      exact Fin.ext (by show k'.val = 63 * (r.val / 64) + r.val % 64; omega)
    · show dhNode _ b (64 * ((63 * (r.val / 64) + r.val % 64) / 63) + (63 * (r.val / 64) + r.val % 64) % 63) = _
      rw [hl]
  · rw [if_neg h]
    refine scatter_point_of_miss _ _ _ _ b r c ?_
    intro k hk
    rw [v72_row_int (F := Ideal), v72_col_int (F := Ideal)] at hk
    have := k.isLt
    omega

/-- After the fourth scatter: also the horizontal weight of node `c` on the diagonal `r = c + 1`, where `c` is not in
    the last grid column. -/
theorem v87_read :
    val_main_v87 (F := Ideal) x0 (ix3 b r c)
      = if r.val = c.val + 1 ∧ c.val % 64 < 63 then dhNode (val_main_v11 (F := Ideal) x0) b c.val
        else val_main_v73 (F := Ideal) x0 (ix3 b r c) := by
  have hr : r.val < 4096 := r.isLt
  have hc : c.val < 4096 := c.isLt
  unfold val_main_v87
  rw [dims_eq]
  by_cases h : r.val = c.val + 1 ∧ c.val % 64 < 63
  · rw [if_pos h]
    have hk : 63 * (c.val / 64) + c.val % 64 < 4032 := by omega
    have hl : 64 * ((63 * (c.val / 64) + c.val % 64) / 63) + (63 * (c.val / 64) + c.val % 64) % 63 = c.val := by
      omega
    refine (scatter_point_of_hit _ _ _ _ b r c ⟨63 * (c.val / 64) + c.val % 64, hk⟩ ?_ ?_ ?_).trans
      ((v59_flat x0 b ⟨63 * (c.val / 64) + c.val % 64, hk⟩).trans ?_)
    · rw [v86_row_int (F := Ideal)]
      show ((64 * ((63 * (c.val / 64) + c.val % 64) / 63) + (63 * (c.val / 64) + c.val % 64) % 63 + 1 : Nat) : Int) = _
      omega
    · rw [v86_col_int (F := Ideal)]
      show ((64 * ((63 * (c.val / 64) + c.val % 64) / 63) + (63 * (c.val / 64) + c.val % 64) % 63 : Nat) : Int) = _
      omega
    · intro k' _ h2
      rw [v86_col_int (F := Ideal)] at h2
      have := k'.isLt
      exact Fin.ext (by show k'.val = 63 * (c.val / 64) + c.val % 64; omega)
    · show dhNode _ b (64 * ((63 * (c.val / 64) + c.val % 64) / 63) + (63 * (c.val / 64) + c.val % 64) % 63) = _
      rw [hl]
  · rw [if_neg h]
    refine scatter_point_of_miss _ _ _ _ b r c ?_
    intro k hk
    rw [v86_row_int (F := Ideal), v86_col_int (F := Ideal)] at hk
    have := k.isLt
    omega

end Reads

/-! ## The four diagonals are different: the order of the cases is immaterial -/

/-- A node in the last grid column carries no horizontal weight. -/
theorem dhNode_last_col (dh : SDh.Idx → EReal) (b : Fin 4) (n : ℕ) (h : n % 64 = 63) : dhNode dh b n = 0 := by
  unfold dhNode
  exact dif_neg (fun h' => by omega)

/-- The cases in the order the scatters run (last one first) against the order `adjAt` lists them. -/
theorem cases_reorder (dvn dhn : ℕ → EReal) (hz : ∀ n, n % 64 = 63 → dhn n = 0) (r c : ℕ) :
    (if r = c + 1 ∧ c % 64 < 63 then dhn c
      else if c = r + 1 ∧ r % 64 < 63 then dhn r
      else if c = r + 64 then dvn r
      else if r = c + 64 then dvn c else 0)
    = (if r = c + 64 then dvn c
      else if c = r + 64 then dvn r
      else if c = r + 1 then dhn r
      else if r = c + 1 then dhn c else 0) := by
  by_cases h1 : r = c + 64
  · refine Eq.trans (b := dvn c) ?_ ?_
    · rw [if_neg (show ¬(r = c + 1 ∧ c % 64 < 63) by omega), if_neg (show ¬(c = r + 1 ∧ r % 64 < 63) by omega),
        if_neg (show ¬c = r + 64 by omega), if_pos h1]
    · rw [if_pos h1]
  by_cases h2 : c = r + 64
  · refine Eq.trans (b := dvn r) ?_ ?_
    · rw [if_neg (show ¬(r = c + 1 ∧ c % 64 < 63) by omega), if_neg (show ¬(c = r + 1 ∧ r % 64 < 63) by omega),
        if_pos h2]
    · rw [if_neg h1, if_pos h2]
  by_cases h3 : c = r + 1
  · refine Eq.trans (b := dhn r) ?_ ?_
    · rw [if_neg (show ¬(r = c + 1 ∧ c % 64 < 63) by omega)]
      by_cases h3' : r % 64 < 63
      · rw [if_pos ⟨h3, h3'⟩]
      · rw [if_neg (show ¬(c = r + 1 ∧ r % 64 < 63) from fun h => h3' h.2), if_neg h2, if_neg h1,
          hz r (by omega)]
    · rw [if_neg h1, if_neg h2, if_pos h3]
  by_cases h4 : r = c + 1
  · refine Eq.trans (b := dhn c) ?_ ?_
    · by_cases h4' : c % 64 < 63
      · rw [if_pos ⟨h4, h4'⟩]
      · rw [if_neg (show ¬(r = c + 1 ∧ c % 64 < 63) from fun h => h4' h.2),
          if_neg (show ¬(c = r + 1 ∧ r % 64 < 63) by omega), if_neg h2, if_neg h1, hz c (by omega)]
    · rw [if_neg h1, if_neg h2, if_neg h3, if_pos h4]
  · refine Eq.trans (b := 0) ?_ ?_
    · rw [if_neg (show ¬(r = c + 1 ∧ c % 64 < 63) from fun h => h4 h.1),
        if_neg (show ¬(c = r + 1 ∧ r % 64 < 63) from fun h => h3 h.1), if_neg h2, if_neg h1]
    · rw [if_neg h1, if_neg h2, if_neg h3, if_neg h4]

/-- THE REFERENCE'S MATRIX is the banded adjacency matrix of its two weight arrays. -/
theorem ref_eq_adj (x0 : (⟨S4x3x1024x1024, .f32⟩ : BufTy).Contents (Elt Ideal)) :
    val_main_v87 (F := Ideal) x0
      = adj (val_main_v6 (F := Ideal) x0) (val_main_v11 (F := Ideal) x0) := by
  funext i
  obtain ⟨b, r, c, rfl⟩ : ∃ (b : Fin 4) (r c : Fin 4096), i = ix3 b r c := ⟨i 0, i 1, i 2, eq_ix3 i⟩
  rw [adj_apply, v87_read, v73_read, v54_read, v40_read]
  unfold adjAt
  exact cases_reorder (dvNode (val_main_v6 (F := Ideal) x0) b) (dhNode (val_main_v11 (F := Ideal) x0) b)
    (fun n hn => dhNode_last_col _ b n hn) r.val c.val

end Cert.Adjacency.Ref
-- ==== Proof.Bridge.lean ====
/-
  The two programs compute the weight arrays by the same host operations — reshape the image into 16 x 16 patches, keep the
  top-left 15 x 15 of each, subtract vertically (horizontally) adjacent patches, take absolute values, sum over channel
  and the two within-patch axes —, so the reference's term for each weight array and the kernel program's are one term:
  they differ only in which program's (equal) shape facts they cite.
-/
import proofs.«100916_j78520592106142_2_alg».proof.Proof.KernelArrays
import proofs.«100916_j78520592106142_2_alg».proof.Proof.Gen.ReferenceIdeal.Read

noncomputable section

namespace Cert.Adjacency.Bridge

open Idealize.ShloMosaic Cert.ReferenceIdeal.Read

/-- The vertical weights: the reference's term is the kernel program's. -/
theorem dvK_eq (x0 : (⟨Cert.ReferenceIdeal.S4x3x1024x1024, .f32⟩ : BufTy).Contents (Elt Ideal)) :
    val_main_v6 (F := Ideal) x0 = Cert.Adjacency.Kernel.dvK x0 := by
  unfold val_main_v6 val_main_v5 val_main_v4 val_main_v3 val_main_v2 val_main_v1 val_main_v0 val_main_cst Cert.Adjacency.Kernel.dvK
  rfl

/-- The horizontal weights likewise. -/
theorem dhK_eq (x0 : (⟨Cert.ReferenceIdeal.S4x3x1024x1024, .f32⟩ : BufTy).Contents (Elt Ideal)) :
    val_main_v11 (F := Ideal) x0 = Cert.Adjacency.Kernel.dhK x0 := by
  unfold val_main_v11 val_main_v10 val_main_v9 val_main_v8 val_main_v7 val_main_v1 val_main_v0 val_main_cst_0 Cert.Adjacency.Kernel.dhK
  rfl

end Cert.Adjacency.Bridge

end
-- ==== Proof.lean ====
/-
  The certificate of the banded adjacency kernel against its scatter reference.

  Both programs first reduce the input image to two small weight arrays by the same host operations: dv (the L1 distance
  between vertically adjacent patches, 4 x 63 x 64) and dh (between horizontally adjacent patches, 4 x 64 x 63). The
  reference then scatters them into a zero 4 x 4096 x 4096 matrix along the four diagonals r - c = 64, -64, -1, 1 of the
  node numbering n = 64 * y + x; the kernel pads and flattens them and builds the same matrix tile by tile, selecting by
  the value of r - c, storing a zero tile wherever the tile cannot meet a diagonal. Both results are the ONE function
  `Cert.Adjacency.adj dv dh` of the weight arrays (Spec.lean): the kernel's by reading its run tile by tile
  (KernelIdealBody, KernelPayload, KernelArrays, KernelIdealValue), the reference's by reading its four scatters at an
  index, each update landing on its own entry (LibScatterSet, RefValue). No law of arithmetic is needed — the two sides
  are the same selection of the same entries — so the finiteness of the input is never used.
  The three frames: each kernel program's from its run (the body by symbolic execution, then the launch theorem), the
  reference's from its generated run. The idealization rewrote nothing, so `preserves` is `True`.
-/
import proofs.«100916_j78520592106142_2_alg».proof.Defs
import proofs.«100916_j78520592106142_2_alg».proof.Proof.Gen.Kernel
import proofs.«100916_j78520592106142_2_alg».proof.Proof.Gen.KernelIdeal
import proofs.«100916_j78520592106142_2_alg».proof.Proof.Gen.ReferenceIdeal
import proofs.«100916_j78520592106142_2_alg».proof.Proof.Gen.Pre_finite_inputs
import proofs.«100916_j78520592106142_2_alg».proof.Proof.Gen.ReferenceIdeal.Run
import proofs.«100916_j78520592106142_2_alg».proof.Proof.Gen.ReferenceIdeal.Read
import proofs.«100916_j78520592106142_2_alg».proof.Proof.KernelBody
import proofs.«100916_j78520592106142_2_alg».proof.Proof.KernelIdealValue
import proofs.«100916_j78520592106142_2_alg».proof.Proof.RefValue
import proofs.«100916_j78520592106142_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs to the end without a fault and leaves its argument unchanged. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference is host operations only: its run, with the result dropped. -/
theorem frame_ri : Cert.frame_ReferenceIdeal := fun m ρ _ =>
  (θ_run Cert.ReferenceIdeal.defs _ _).mono (fun _ h c => (h c).2.1) (Cert.ReferenceIdeal.Value.run (F := Ideal) m ρ)

/-- The idealization rewrote no operation. -/
theorem preserves : Cert.preserves_Kernel_KernelIdeal := trivial

/-- From memories agreeing on the argument both programs end with the adjacency matrix of the argument's two weight
    arrays: the kernel's run gives it over its own spelling of the weight arrays, the reference's four scatters read at
    an index give it over the reference's spelling, and the two spellings are one term. -/
theorem algebraic : Cert.algebraic_KernelIdeal_ReferenceIdeal := by
  intro m ρ m' ρ' _ hagree
  refine ⟨fun c => Cert.Adjacency.adj
      (Cert.Adjacency.Kernel.dvK (m ((c.tc : Thread Cert.KernelIdeal.nD Cert.KernelIdeal.τ).loc Cert.KernelIdeal.main_arg0)))
      (Cert.Adjacency.Kernel.dhK (m ((c.tc : Thread Cert.KernelIdeal.nD Cert.KernelIdeal.τ).loc Cert.KernelIdeal.main_arg0))),
    fun c => m ((c.tc : Thread Cert.KernelIdeal.nD Cert.KernelIdeal.τ).loc Cert.KernelIdeal.main_arg0), ?_, ?_⟩
  · exact (θ_run Cert.KernelIdeal.defs _ _).mono (fun _ h c => ⟨(h c).1, (h c).2, (h c).2⟩) (Cert.Adjacency.KernelRun.run m ρ)
  · refine (θ_run Cert.ReferenceIdeal.defs _ _).mono (fun _ h c => ⟨(h c).1.trans ?_, (h c).2.1.trans (hagree c), (h c).2.1⟩)
      (Cert.ReferenceIdeal.Value.run (F := Ideal) m' ρ')
    rw [Cert.ReferenceIdeal.Read.val_main_v87_eq, Cert.Adjacency.Ref.ref_eq_adj, hagree c,
      Cert.Adjacency.Bridge.dvK_eq, Cert.Adjacency.Bridge.dhK_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
